-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v41)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v41) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x256 : Shape := ⟨2, ![10000, 256]⟩
abbrev S256x256 : Shape := ⟨2, ![256, 256]⟩
abbrev S2x320000 : Shape := ⟨2, ![2, 320000]⟩
abbrev S_ : Shape := ⟨0, ![]⟩

class Facts : Prop where
  bcast_S_S10000x256 : S_.BroadcastsInDim S10000x256 (![] : Fin 0 → Fin S10000x256.rank)
  reducesTo_S10000x256_S_d0_1 : S10000x256.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_
  bcast_S_S2x320000 : S_.BroadcastsInDim S2x320000 (![] : Fin 0 → Fin S2x320000.rank)
  reducesTo_S2x320000_S_d0_1 : S2x320000.ReducesTo [0, 1] S_

variable [Facts]

def fn_part1 {F : FTy → Type} [FloatOps F] (main_v12 : IVec S_ 1) (main_v15 : IVec S_ 1) : IVec S_ 1 :=
  let main_v16 : IVec S_ 1 := andi main_v12 main_v15
  main_v16

def fn {F : FTy → Type} [FloatOps F] (main_arg0 : FVec F S10000x256 .f32) (main_arg1 : FVec F S256x256 .f32) (main_arg2 : IVec S2x320000 32) : IVec S_ 1 :=
  let main_v0 : FVec F S10000x256 .f32 := Host.absf main_arg0
  let main_cst : FVec F S_ .f32 := constant S_ .f32 0x7F800000#32
  let main_v1 : FVec F S10000x256 .f32 := broadcastInDim S10000x256 ![] bcast_S_S10000x256 main_cst
  let main_v2 : IVec S10000x256 1 := cmpf .olt main_v0 main_v1
  let main_c : IVec S_ 1 := constantI S_ 1 1#1
  let main_v3 : IVec S_ 1 := (fun x v => Host.reduce IntOp.andi x v reducesTo_S10000x256_S_d0_1 h_S_) main_v2 main_c
  let main_v4 : FVec F S256x256 .f32 := Host.absf main_arg1
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_c_2 : IVec S_ 32 := constantI S_ 32 0#32
  let main_v9 : IVec S2x320000 32 := broadcastInDim S2x320000 ![] bcast_S_S2x320000 main_c_2
  let main_v10 : IVec S2x320000 1 := cmpi .sge main_arg2 main_v9
  let main_c_3 : IVec S_ 1 := constantI S_ 1 1#1
  let main_v11 : IVec S_ 1 := (fun x v => Host.reduce IntOp.andi x v reducesTo_S2x320000_S_d0_1 h_S_) main_v10 main_c_3
  let main_v12 : IVec S_ 1 := andi main_v8 main_v11
  let main_c_4 : IVec S_ 32 := constantI S_ 32 10000#32
  let main_v13 : IVec S2x320000 32 := broadcastInDim S2x320000 ![] bcast_S_S2x320000 main_c_4
  let main_v14 : IVec S2x320000 1 := cmpi .slt main_arg2 main_v13
  let main_c_5 : IVec S_ 1 := constantI S_ 1 1#1
  let main_v15 : IVec S_ 1 := (fun x v => Host.reduce IntOp.andi x v reducesTo_S2x320000_S_d0_1 h_S_) main_v14 main_c_5
  fn_part1 (F := F) main_v12 main_v15
-- ==== Kernel.lean ====
abbrev S10000x256 : Shape := ⟨2, ![10000, 256]⟩
abbrev S256x256 : Shape := ⟨2, ![256, 256]⟩
abbrev S2x320000 : Shape := ⟨2, ![2, 320000]⟩
abbrev S10000 : Shape := ⟨1, ![10000]⟩
abbrev S1x320000 : Shape := ⟨2, ![1, 320000]⟩
abbrev S320000 : Shape := ⟨1, ![320000]⟩
abbrev S_ : Shape := ⟨0, ![]⟩
abbrev S10112x10112 : Shape := ⟨2, ![10112, 10112]⟩
abbrev S10000x1 : Shape := ⟨2, ![10000, 1]⟩
abbrev S10000x2 : Shape := ⟨2, ![10000, 2]⟩
abbrev S320000x1 : Shape := ⟨2, ![320000, 1]⟩
abbrev S320000x2 : Shape := ⟨2, ![320000, 2]⟩
abbrev S10112x1 : Shape := ⟨2, ![10112, 1]⟩
abbrev S128x10112 : Shape := ⟨2, ![128, 10112]⟩
abbrev S128x1 : Shape := ⟨2, ![128, 1]⟩
abbrev S128 : Shape := ⟨1, ![128]⟩
abbrev S10112x256 : Shape := ⟨2, ![10112, 256]⟩
abbrev S128x256 : Shape := ⟨2, ![128, 256]⟩

abbrev nBuf : Space → Nat
  | .hbm => 58
  | .vmem => 12
  | .smem => 0
  | _ => 0

abbrev bufTy : (tb : Table) → Fin (tcTables nBuf tb) → BufTy
  | .hbm, ⟨0, _⟩ => ⟨S10000x256, .f32⟩
  | .hbm, ⟨1, _⟩ => ⟨S256x256, .f32⟩
  | .hbm, ⟨2, _⟩ => ⟨S2x320000, .i32⟩
  | .hbm, ⟨3, _⟩ => ⟨S10000, .i32⟩
  | .hbm, ⟨4, _⟩ => ⟨S1x320000, .i32⟩
  | .hbm, ⟨5, _⟩ => ⟨S320000, .i32⟩
  | .hbm, ⟨6, _⟩ => ⟨S1x320000, .i32⟩
  | .hbm, ⟨7, _⟩ => ⟨S320000, .i32⟩
  | .hbm, ⟨8, _⟩ => ⟨S_, .bf16⟩
  | .hbm, ⟨9, _⟩ => ⟨S10112x10112, .bf16⟩
  | .hbm, ⟨10, _⟩ => ⟨S_, .i32⟩
  | .hbm, ⟨11, _⟩ => ⟨S10000, .i32⟩
  | .hbm, ⟨12, _⟩ => ⟨S10000, .i1⟩
  | .hbm, ⟨13, _⟩ => ⟨S_, .i32⟩
  | .hbm, ⟨14, _⟩ => ⟨S10000, .i32⟩
  | .hbm, ⟨15, _⟩ => ⟨S10000, .i32⟩
  | .hbm, ⟨16, _⟩ => ⟨S10000, .i32⟩
  | .hbm, ⟨17, _⟩ => ⟨S_, .i32⟩
  | .hbm, ⟨18, _⟩ => ⟨S10000, .i32⟩
  | .hbm, ⟨19, _⟩ => ⟨S10000, .i1⟩
  | .hbm, ⟨20, _⟩ => ⟨S_, .i32⟩
  | .hbm, ⟨21, _⟩ => ⟨S10000, .i32⟩
  | .hbm, ⟨22, _⟩ => ⟨S10000, .i32⟩
  | .hbm, ⟨23, _⟩ => ⟨S10000, .i32⟩
  | .hbm, ⟨24, _⟩ => ⟨S10000x1, .i32⟩
  | .hbm, ⟨25, _⟩ => ⟨S10000x1, .i32⟩
  | .hbm, ⟨26, _⟩ => ⟨S10000x2, .i32⟩
  | .hbm, ⟨27, _⟩ => ⟨S_, .bf16⟩
  | .hbm, ⟨28, _⟩ => ⟨S10000, .bf16⟩
  | .hbm, ⟨29, _⟩ => ⟨S10112x10112, .bf16⟩
  | .hbm, ⟨30, _⟩ => ⟨S_, .i32⟩
  | .hbm, ⟨31, _⟩ => ⟨S320000, .i32⟩
  | .hbm, ⟨32, _⟩ => ⟨S320000, .i1⟩
  | .hbm, ⟨33, _⟩ => ⟨S_, .i32⟩
  | .hbm, ⟨34, _⟩ => ⟨S320000, .i32⟩
  | .hbm, ⟨35, _⟩ => ⟨S320000, .i32⟩
  | .hbm, ⟨36, _⟩ => ⟨S320000, .i32⟩
  | .hbm, ⟨37, _⟩ => ⟨S_, .i32⟩
  | .hbm, ⟨38, _⟩ => ⟨S320000, .i32⟩
  | .hbm, ⟨39, _⟩ => ⟨S320000, .i1⟩
  | .hbm, ⟨40, _⟩ => ⟨S_, .i32⟩
  | .hbm, ⟨41, _⟩ => ⟨S320000, .i32⟩
  | .hbm, ⟨42, _⟩ => ⟨S320000, .i32⟩
  | .hbm, ⟨43, _⟩ => ⟨S320000, .i32⟩
  | .hbm, ⟨44, _⟩ => ⟨S320000x1, .i32⟩
  | .hbm, ⟨45, _⟩ => ⟨S320000x1, .i32⟩
  | .hbm, ⟨46, _⟩ => ⟨S320000x2, .i32⟩
  | .hbm, ⟨47, _⟩ => ⟨S_, .bf16⟩
  | .hbm, ⟨48, _⟩ => ⟨S320000, .bf16⟩
  | .hbm, ⟨49, _⟩ => ⟨S10112x10112, .bf16⟩
  | .hbm, ⟨50, _⟩ => ⟨S10112x1, .f32⟩
  | .hbm, ⟨51, _⟩ => ⟨S_, .i32⟩
  | .hbm, ⟨52, _⟩ => ⟨S_, .f32⟩
  | .hbm, ⟨53, _⟩ => ⟨S10112x256, .f32⟩
  | .hbm, ⟨54, _⟩ => ⟨S10112x256, .f32⟩
  | .hbm, ⟨55, _⟩ => ⟨S10112x256, .f32⟩
  | .hbm, ⟨56, _⟩ => ⟨S10112x256, .f32⟩
  | .hbm, ⟨57, _⟩ => ⟨S10000x256, .f32⟩
  | .local _ .vmem, ⟨0, _⟩ => ⟨S128x10112, .bf16⟩
  | .local _ .vmem, ⟨1, _⟩ => ⟨S128x10112, .bf16⟩
  | .local _ .vmem, ⟨2, _⟩ => ⟨S128x1, .f32⟩
  | .local _ .vmem, ⟨3, _⟩ => ⟨S128x1, .f32⟩
  | .local _ .vmem, ⟨4, _⟩ => ⟨S128x10112, .bf16⟩
  | .local _ .vmem, ⟨5, _⟩ => ⟨S128x10112, .bf16⟩
  | .local _ .vmem, ⟨6, _⟩ => ⟨S10112x256, .f32⟩
  | .local _ .vmem, ⟨7, _⟩ => ⟨S128x1, .f32⟩
  | .local _ .vmem, ⟨8, _⟩ => ⟨S128x1, .f32⟩
  | .local _ .vmem, ⟨9, _⟩ => ⟨S256x256, .f32⟩
  | .local _ .vmem, ⟨10, _⟩ => ⟨S128x256, .f32⟩
  | .local _ .vmem, ⟨11, _⟩ => ⟨S128x256, .f32⟩
  | _, _ => ⟨S10000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_c : Ref sig .tc := ⟨.hbm, 10, rfl⟩
abbrev main_v6 : Ref sig .tc := ⟨.hbm, 11, rfl⟩
abbrev main_v7 : Ref sig .tc := ⟨.hbm, 12, rfl⟩
abbrev main_c_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_c_1 : Ref sig .tc := ⟨.hbm, 17, rfl⟩
abbrev main_v11 : Ref sig .tc := ⟨.hbm, 18, rfl⟩
abbrev main_v12 : Ref sig .tc := ⟨.hbm, 19, rfl⟩
abbrev main_c_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_3 : Ref sig .tc := ⟨.hbm, 27, rfl⟩
abbrev main_v19 : Ref sig .tc := ⟨.hbm, 28, rfl⟩
abbrev main_v20 : Ref sig .tc := ⟨.hbm, 29, rfl⟩
abbrev main_c_4 : Ref sig .tc := ⟨.hbm, 30, rfl⟩
abbrev main_v21 : Ref sig .tc := ⟨.hbm, 31, rfl⟩
abbrev main_v22 : Ref sig .tc := ⟨.hbm, 32, rfl⟩
abbrev main_c_5 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_c_6 : Ref sig .tc := ⟨.hbm, 37, rfl⟩
abbrev main_v26 : Ref sig .tc := ⟨.hbm, 38, rfl⟩
abbrev main_v27 : Ref sig .tc := ⟨.hbm, 39, rfl⟩
abbrev main_c_7 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_8 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_c_9 : Ref sig .tc := ⟨.hbm, 51, rfl⟩
abbrev main_call0_v0 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg2_0 : Ref sig .tc := ⟨.vmem, 7, rfl⟩
abbrev cc1_stg2_1 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg4_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem2_0 : DmaSem sig := 7
abbrev cc1_sem2_1 : DmaSem sig := 8
abbrev cc1_sem3_0 : DmaSem sig := 9
abbrev cc1_sem4_0 : DmaSem sig := 10
abbrev cc1_sem4_1 : DmaSem sig := 11

abbrev nD : Nat := 1
abbrev τ : Topo := Topo.v7x

variable {F : FTy → Type} [FloatOps F]

abbrev grid0 : Pipeline.Grid := ⟨1, ![79], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x10112 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨1, ![79], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S128x10112 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S10112x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S128x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S256x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S128x256 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  slices_S2x320000_S1x320000_0_0 : S2x320000.Slices ![0, 0] S1x320000
  shapeCasts_S1x320000_S320000 : S1x320000.ShapeCasts S320000
  slices_S2x320000_S1x320000_1_0 : S2x320000.Slices ![1, 0] S1x320000
  bcast_S_S10112x10112 : S_.BroadcastsInDim S10112x10112 (![] : Fin 0 → Fin S10112x10112.rank)
  bcast_S_S10000 : S_.BroadcastsInDim S10000 (![] : Fin 0 → Fin S10000.rank)
  bcast_S10000_S10000x1_0 : S10000.BroadcastsInDim S10000x1 (![0] : Fin 1 → Fin S10000x1.rank)
  concatenates_S10000x1_S10000x1_S10000x2_d1 : Shape.Concatenates [S10000x1, S10000x1] S10000x2 1
  bcast_S_S320000 : S_.BroadcastsInDim S320000 (![] : Fin 0 → Fin S320000.rank)
  bcast_S320000_S320000x1_0 : S320000.BroadcastsInDim S320000x1 (![0] : Fin 1 → Fin S320000x1.rank)
  concatenates_S320000x1_S320000x1_S320000x2_d1 : Shape.Concatenates [S320000x1, S320000x1] S320000x2 1
  inb_S128x10112_S128x10112_0_0 : ∀ a, (![0, 0] : Fin 2 → Nat) a + S128x10112.size a ≤ S128x10112.size a
  h_S128x10112 : 0 < S128x10112.numel
  shapeCasts_S128x10112_S128x10112 : S128x10112.ShapeCasts S128x10112
  bitsLt_bf16_f32 : FTy.bits .bf16 < FTy.bits .f32
  reduces_S128x10112_S128 : S128x10112.Reduces [1] S128
  shapeCasts_S128_S128x1 : S128.ShapeCasts S128x1
  inb_S128x1_S128x1_0_0 : ∀ a, (![0, 0] : Fin 2 → Nat) a + S128x1.size a ≤ S128x1.size a
  h_S128x1 : 0 < S128x1.numel
  pads_S10000x256_S10112x256_01120_000 : S10000x256.Pads (![0, 0] : Fin 2 → Nat) ![112, 0] ![0, 0] S10112x256
  h_S_ : 0 < S_.numel
  bcast_S10112x1_S10112x256_0_1 : S10112x1.BroadcastsInDim S10112x256 (![0, 1] : Fin 2 → Fin S10112x256.rank)
  inb_S10112x256_S10112x256_0_0 : ∀ a, (![0, 0] : Fin 2 → Nat) a + S10112x256.size a ≤ S10112x256.size a
  h_S10112x256 : 0 < S10112x256.numel
  shapeCasts_S10112x256_S10112x256 : S10112x256.ShapeCasts S10112x256
  shapeCasts_S128x1_S128x1 : S128x1.ShapeCasts S128x1
  broadcasts_S128x1_S128x256 : S128x1.Broadcasts S128x256
  inb_S256x256_S256x256_0_0 : ∀ a, (![0, 0] : Fin 2 → Nat) a + S256x256.size a ≤ S256x256.size a
  h_S256x256 : 0 < S256x256.numel
  inb_S128x256_S128x256_0_0 : ∀ a, (![0, 0] : Fin 2 → Nat) a + S128x256.size a ≤ S128x256.size a
  h_S128x256 : 0 < S128x256.numel
  slices_S10112x256_S10000x256_0_0 : S10112x256.Slices ![0, 0] S10000x256
  scatter_S10112x10112_S10000x2_S10000_n_01_01_1_wf : ScatterDims.WF S10112x10112 S10000x2 S10000 [] [0, 1] [0, 1] 1
  scatter_S10112x10112_S320000x2_S320000_n_01_01_1_wf : ScatterDims.WF S10112x10112 S320000x2 S320000 [] [0, 1] [0, 1] 1
  dot_S128x10112_S10112x256_S128x256_1_0_0_1_n_n_wf : DotDims.WF S128x10112 S10112x256 S128x256 [1] [0] [0] [1] [] []
  dot_S128x256_S256x256_S128x256_1_0_0_1_n_n_wf : DotDims.WF S128x256 S256x256 S128x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x10112.size a ≤ S10112x10112.size a
  hwx0_0 : ∀ i : grid0.Coords, EltTy.bits .bf16 = 32 ∨ (Rect.block (s := S10112x10112) S128x10112.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x1.size a ≤ S10112x1.size a
  hwx0_1 : ∀ i : grid0.Coords, EltTy.bits .f32 = 32 ∨ (Rect.block (s := S10112x1) S128x1.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S128x10112.size a ≤ S10112x10112.size a
  hwx1_0 : ∀ i : grid1.Coords, EltTy.bits .bf16 = 32 ∨ (Rect.block (s := S10112x10112) S128x10112.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S10112x256.size a ≤ S10112x256.size a
  hwx1_1 : ∀ i : grid1.Coords, EltTy.bits .f32 = 32 ∨ (Rect.block (s := S10112x256) S10112x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S128x1.size a ≤ S10112x1.size a
  hwx1_2 : ∀ i : grid1.Coords, EltTy.bits .f32 = 32 ∨ (Rect.block (s := S10112x1) S128x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x256.size a ≤ S256x256.size a
  hwx1_3 : ∀ i : grid1.Coords, EltTy.bits .f32 = 32 ∨ (Rect.block (s := S256x256) S256x256.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S128x256.size a ≤ S10112x256.size a
  hwx1_4 : ∀ i : grid1.Coords, EltTy.bits .f32 = 32 ∨ (Rect.block (s := S10112x256) S128x256.size (cc1_transform_4 i) (hinb1_4 i)).WholeWords (EltTy.packing .f32)

variable [Facts₀]

def scatter_S10112x10112_S10000x2_S10000_n_01_01_1 : ScatterDims S10112x10112 S10000x2 S10000 where
  updateWindowDims := []
  insertedWindowDims := [0, 1]
  scatterDimsToOperandDims := [0, 1]
  indexVectorDim := 1
  wf := scatter_S10112x10112_S10000x2_S10000_n_01_01_1_wf
def scatter_S10112x10112_S320000x2_S320000_n_01_01_1 : ScatterDims S10112x10112 S320000x2 S320000 where
  updateWindowDims := []
  insertedWindowDims := [0, 1]
  scatterDimsToOperandDims := [0, 1]
  indexVectorDim := 1
  wf := scatter_S10112x10112_S320000x2_S320000_n_01_01_1_wf
def dot_S128x10112_S10112x256_S128x256_1_0_0_1_n_n : DotDims S128x10112 S10112x256 S128x256 where
  lhsContracting := [1]
  rhsContracting := [0]
  lhsNonContracting := [0]
  rhsNonContracting := [1]
  lhsBatch := []
  rhsBatch := []
  wf := dot_S128x10112_S10112x256_S128x256_1_0_0_1_n_n_wf
def dot_S128x256_S256x256_S128x256_1_0_0_1_n_n : DotDims S128x256 S256x256 S128x256 where
  lhsContracting := [1]
  rhsContracting := [0]
  lhsNonContracting := [0]
  rhsNonContracting := [1]
  lhsBatch := []
  rhsBatch := []
  wf := dot_S128x256_S256x256_S128x256_1_0_0_1_n_n_wf

abbrev win0_0 : Pipeline.Window sig grid0 :=
  Pipeline.Window.ofSpec (Memref.whole main_v35) S128x10112.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v36) S128x1.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_v35) S128x10112.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v39) S10112x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v36) S128x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg1) S256x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v40) S128x256.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S10000x256 : Shape := ⟨2, ![10000, 256]⟩
abbrev S256x256 : Shape := ⟨2, ![256, 256]⟩
abbrev S2x320000 : Shape := ⟨2, ![2, 320000]⟩
abbrev S10000 : Shape := ⟨1, ![10000]⟩
abbrev S_ : Shape := ⟨0, ![]⟩
abbrev S10000x10000 : Shape := ⟨2, ![10000, 10000]⟩
abbrev S10000x1 : Shape := ⟨2, ![10000, 1]⟩
abbrev S10000x2 : Shape := ⟨2, ![10000, 2]⟩
abbrev S1x320000 : Shape := ⟨2, ![1, 320000]⟩
abbrev S320000 : Shape := ⟨1, ![320000]⟩
abbrev S320000x1 : Shape := ⟨2, ![320000, 1]⟩
abbrev S320000x2 : Shape := ⟨2, ![320000, 2]⟩
abbrev S1x10000 : Shape := ⟨2, ![1, 10000]⟩

abbrev nBuf : Space → Nat
  | .hbm => 61
  | .vmem => 0
  | .smem => 0
  | _ => 0

abbrev bufTy : (tb : Table) → Fin (tcTables nBuf tb) → BufTy
  | .hbm, ⟨0, _⟩ => ⟨S10000x256, .f32⟩
  | .hbm, ⟨1, _⟩ => ⟨S256x256, .f32⟩
  | .hbm, ⟨2, _⟩ => ⟨S2x320000, .i32⟩
  | .hbm, ⟨3, _⟩ => ⟨S10000, .i32⟩
  | .hbm, ⟨4, _⟩ => ⟨S_, .f32⟩
  | .hbm, ⟨5, _⟩ => ⟨S10000x10000, .f32⟩
  | .hbm, ⟨6, _⟩ => ⟨S_, .i32⟩
  | .hbm, ⟨7, _⟩ => ⟨S10000, .i32⟩
  | .hbm, ⟨8, _⟩ => ⟨S10000, .i1⟩
  | .hbm, ⟨9, _⟩ => ⟨S_, .i32⟩
  | .hbm, ⟨10, _⟩ => ⟨S10000, .i32⟩
  | .hbm, ⟨11, _⟩ => ⟨S10000, .i32⟩
  | .hbm, ⟨12, _⟩ => ⟨S10000, .i32⟩
  | .hbm, ⟨13, _⟩ => ⟨S_, .i32⟩
  | .hbm, ⟨14, _⟩ => ⟨S10000, .i32⟩
  | .hbm, ⟨15, _⟩ => ⟨S10000, .i1⟩
  | .hbm, ⟨16, _⟩ => ⟨S_, .i32⟩
  | .hbm, ⟨17, _⟩ => ⟨S10000, .i32⟩
  | .hbm, ⟨18, _⟩ => ⟨S10000, .i32⟩
  | .hbm, ⟨19, _⟩ => ⟨S10000, .i32⟩
  | .hbm, ⟨20, _⟩ => ⟨S10000x1, .i32⟩
  | .hbm, ⟨21, _⟩ => ⟨S10000x1, .i32⟩
  | .hbm, ⟨22, _⟩ => ⟨S10000x2, .i32⟩
  | .hbm, ⟨23, _⟩ => ⟨S_, .f32⟩
  | .hbm, ⟨24, _⟩ => ⟨S10000, .f32⟩
  | .hbm, ⟨25, _⟩ => ⟨S10000x10000, .f32⟩
  | .hbm, ⟨26, _⟩ => ⟨S1x320000, .i32⟩
  | .hbm, ⟨27, _⟩ => ⟨S320000, .i32⟩
  | .hbm, ⟨28, _⟩ => ⟨S1x320000, .i32⟩
  | .hbm, ⟨29, _⟩ => ⟨S320000, .i32⟩
  | .hbm, ⟨30, _⟩ => ⟨S_, .i32⟩
  | .hbm, ⟨31, _⟩ => ⟨S320000, .i32⟩
  | .hbm, ⟨32, _⟩ => ⟨S320000, .i1⟩
  | .hbm, ⟨33, _⟩ => ⟨S_, .i32⟩
  | .hbm, ⟨34, _⟩ => ⟨S320000, .i32⟩
  | .hbm, ⟨35, _⟩ => ⟨S320000, .i32⟩
  | .hbm, ⟨36, _⟩ => ⟨S320000, .i32⟩
  | .hbm, ⟨37, _⟩ => ⟨S_, .i32⟩
  | .hbm, ⟨38, _⟩ => ⟨S320000, .i32⟩
  | .hbm, ⟨39, _⟩ => ⟨S320000, .i1⟩
  | .hbm, ⟨40, _⟩ => ⟨S_, .i32⟩
  | .hbm, ⟨41, _⟩ => ⟨S320000, .i32⟩
  | .hbm, ⟨42, _⟩ => ⟨S320000, .i32⟩
  | .hbm, ⟨43, _⟩ => ⟨S320000, .i32⟩
  | .hbm, ⟨44, _⟩ => ⟨S320000x1, .i32⟩
  | .hbm, ⟨45, _⟩ => ⟨S320000x1, .i32⟩
  | .hbm, ⟨46, _⟩ => ⟨S320000x2, .i32⟩
  | .hbm, ⟨47, _⟩ => ⟨S_, .f32⟩
  | .hbm, ⟨48, _⟩ => ⟨S320000, .f32⟩
  | .hbm, ⟨49, _⟩ => ⟨S10000x10000, .f32⟩
  | .hbm, ⟨50, _⟩ => ⟨S_, .f32⟩
  | .hbm, ⟨51, _⟩ => ⟨S10000, .f32⟩
  | .hbm, ⟨52, _⟩ => ⟨S10000, .f32⟩
  | .hbm, ⟨53, _⟩ => ⟨S10000x1, .f32⟩
  | .hbm, ⟨54, _⟩ => ⟨S10000x10000, .f32⟩
  | .hbm, ⟨55, _⟩ => ⟨S10000x10000, .f32⟩
  | .hbm, ⟨56, _⟩ => ⟨S1x10000, .f32⟩
  | .hbm, ⟨57, _⟩ => ⟨S10000x10000, .f32⟩
  | .hbm, ⟨58, _⟩ => ⟨S10000x10000, .f32⟩
  | .hbm, ⟨59, _⟩ => ⟨S10000x256, .f32⟩
  | .hbm, ⟨60, _⟩ => ⟨S10000x256, .f32⟩
  | _, _ => ⟨S10000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_c : Ref sig .tc := ⟨.hbm, 6, rfl⟩
abbrev main_v2 : Ref sig .tc := ⟨.hbm, 7, rfl⟩
abbrev main_v3 : Ref sig .tc := ⟨.hbm, 8, rfl⟩
abbrev main_c_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c_1 : Ref sig .tc := ⟨.hbm, 13, rfl⟩
abbrev main_v7 : Ref sig .tc := ⟨.hbm, 14, rfl⟩
abbrev main_v8 : Ref sig .tc := ⟨.hbm, 15, rfl⟩
abbrev main_c_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_3 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_c_4 : Ref sig .tc := ⟨.hbm, 30, rfl⟩
abbrev main_v21 : Ref sig .tc := ⟨.hbm, 31, rfl⟩
abbrev main_v22 : Ref sig .tc := ⟨.hbm, 32, rfl⟩
abbrev main_c_5 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_c_6 : Ref sig .tc := ⟨.hbm, 37, rfl⟩
abbrev main_v26 : Ref sig .tc := ⟨.hbm, 38, rfl⟩
abbrev main_v27 : Ref sig .tc := ⟨.hbm, 39, rfl⟩
abbrev main_c_7 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_8 : Ref sig .tc := ⟨.hbm, 47, rfl⟩
abbrev main_v34 : Ref sig .tc := ⟨.hbm, 48, rfl⟩
abbrev main_v35 : Ref sig .tc := ⟨.hbm, 49, rfl⟩
abbrev main_cst_9 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩

abbrev nD : Nat := 1
abbrev τ : Topo := Topo.v7x

variable {F : FTy → Type} [FloatOps F]

class Facts₀ : Prop where
  bcast_S_S10000x10000 : S_.BroadcastsInDim S10000x10000 (![] : Fin 0 → Fin S10000x10000.rank)
  bcast_S_S10000 : S_.BroadcastsInDim S10000 (![] : Fin 0 → Fin S10000.rank)
  bcast_S10000_S10000x1_0 : S10000.BroadcastsInDim S10000x1 (![0] : Fin 1 → Fin S10000x1.rank)
  concatenates_S10000x1_S10000x1_S10000x2_d1 : Shape.Concatenates [S10000x1, S10000x1] S10000x2 1
  slices_S2x320000_S1x320000_0_0 : S2x320000.Slices ![0, 0] S1x320000
  shapeCasts_S1x320000_S320000 : S1x320000.ShapeCasts S320000
  slices_S2x320000_S1x320000_1_0 : S2x320000.Slices ![1, 0] S1x320000
  bcast_S_S320000 : S_.BroadcastsInDim S320000 (![] : Fin 0 → Fin S320000.rank)
  bcast_S320000_S320000x1_0 : S320000.BroadcastsInDim S320000x1 (![0] : Fin 1 → Fin S320000x1.rank)
  concatenates_S320000x1_S320000x1_S320000x2_d1 : Shape.Concatenates [S320000x1, S320000x1] S320000x2 1
  reducesTo_S10000x10000_S10000_d1 : S10000x10000.ReducesTo [1] S10000
  h_S_ : 0 < S_.numel
  bcast_S10000x1_S10000x10000_0_1 : S10000x1.BroadcastsInDim S10000x10000 (![0, 1] : Fin 2 → Fin S10000x10000.rank)
  bcast_S10000_S1x10000_1 : S10000.BroadcastsInDim S1x10000 (![1] : Fin 1 → Fin S1x10000.rank)
  bcast_S1x10000_S10000x10000_0_1 : S1x10000.BroadcastsInDim S10000x10000 (![0, 1] : Fin 2 → Fin S10000x10000.rank)
  scatter_S10000x10000_S10000x2_S10000_n_01_01_1_wf : ScatterDims.WF S10000x10000 S10000x2 S10000 [] [0, 1] [0, 1] 1
  scatter_S10000x10000_S320000x2_S320000_n_01_01_1_wf : ScatterDims.WF S10000x10000 S320000x2 S320000 [] [0, 1] [0, 1] 1
  dot_S10000x10000_S10000x256_S10000x256_1_0_0_1_n_n_wf : DotDims.WF S10000x10000 S10000x256 S10000x256 [1] [0] [0] [1] [] []
  dot_S10000x256_S256x256_S10000x256_1_0_0_1_n_n_wf : DotDims.WF S10000x256 S256x256 S10000x256 [1] [0] [0] [1] [] []

variable [Facts₀]

def scatter_S10000x10000_S10000x2_S10000_n_01_01_1 : ScatterDims S10000x10000 S10000x2 S10000 where
  updateWindowDims := []
  insertedWindowDims := [0, 1]
  scatterDimsToOperandDims := [0, 1]
  indexVectorDim := 1
  wf := scatter_S10000x10000_S10000x2_S10000_n_01_01_1_wf
def scatter_S10000x10000_S320000x2_S320000_n_01_01_1 : ScatterDims S10000x10000 S320000x2 S320000 where
  updateWindowDims := []
  insertedWindowDims := [0, 1]
  scatterDimsToOperandDims := [0, 1]
  indexVectorDim := 1
  wf := scatter_S10000x10000_S320000x2_S320000_n_01_01_1_wf
def dot_S10000x10000_S10000x256_S10000x256_1_0_0_1_n_n : DotDims S10000x10000 S10000x256 S10000x256 where
  lhsContracting := [1]
  rhsContracting := [0]
  lhsNonContracting := [0]
  rhsNonContracting := [1]
  lhsBatch := []
  rhsBatch := []
  wf := dot_S10000x10000_S10000x256_S10000x256_1_0_0_1_n_n_wf
def dot_S10000x256_S256x256_S10000x256_1_0_0_1_n_n : DotDims S10000x256 S256x256 S10000x256 where
  lhsContracting := [1]
  rhsContracting := [0]
  lhsNonContracting := [0]
  rhsNonContracting := [1]
  lhsBatch := []
  rhsBatch := []
  wf := dot_S10000x256_S256x256_S10000x256_1_0_0_1_n_n_wf

class Facts : Prop extends Facts₀ where

variable [Facts]
-- ==== Proof.KernelRun.lean ====
/-
  The idealized kernel's run with its result named. The program is two grid regions among stretches of host
  operations; the contents of every buffer at each boundary are a fold from the launch memory: host operations
  applied in order, and across a region each of its arrays replaced by what the grid's write-backs leave. This
  module states the run once more with the result buffer read at the last boundary: every weakly fair execution
  terminates, the result array holds the last boundary's contents, and the three argument arrays are unchanged.
-/
import proofs.«133764_j58703613001790_1_alg».proof.Proof.Gen.KernelIdeal.Frame

set_option maxRecDepth 16384

noncomputable section

namespace Cert.KernelIdeal.RunValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; at the end the result buffer holds the
    contents of the last boundary of the fold (the host slice applied to what the second region leaves), and the
    argument arrays are as launched. -/
theorem run : θ_run defs (onTc (τ := τ) (main (F := F))) ⟨m, fun _ => 0, ρ⟩ (fun r => ∀ c : Dev nD,
      r.2.mem ((c.tc : Thread nD τ).loc main_v41) = W7 m ρ c (Proc.devRef .tc main_v41)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v41 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c)⟩)

end Cert.KernelIdeal.RunValue

end
-- ==== Proof.KernelFold.lean ====
/-
  The contents of the buffers the two grid regions read, walked back through the boundaries of the run to the
  launch memory. The first region reads the adjacency array the host scatters build; the second reads that same
  array again, the inverse square roots of the degrees the first region wrote, the padded features scaled row by
  row by them (a host padding, a broadcast along the rows and a product), and the weights. The result is the
  leading rows of what the second region leaves.
-/
import proofs.«133764_j58703613001790_1_alg».proof.Proof.Gen.KernelIdeal.Frame
import Idealize.ShloMosaic.Lib.StableHlo.Run

set_option maxRecDepth 16384

noncomputable section

namespace Cert.KernelIdeal.Fold

open Idealize.ShloMosaic Idealize.ShloMosaic.TcCoe Idealize.ShloMosaic.Tactic
open Idealize.SL.Sem Idealize.ShloMosaic.StableHlo
open Idealize.ShloMosaic.Pipeline (Dat Cfg Window)
open Cert.KernelIdeal Cert.KernelIdeal.Gen

variable {F : FTy → Type} [FloatOps F]
variable (m : (ℓ : Loc nD τ sig) → Buf (Elt F) ℓ) (ρ : Dev nD → PrngReg)

/-- No operation of the named stretch writes the buffer in question: every written reference differs from it. -/
local macro "not_written " ops:ident : term =>
  `(List.forall_iff_forall_mem.mp (by
      simp only [$ops:ident, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

/-- The result: the first 10000 rows of what the second region leaves in its output array. -/
theorem result_eq (c : Dev nD) :
    W7 m ρ c (Proc.devRef .tc main_v41)
      = extractStridedSlice S10000x256 ![0, 0] ((dat1 (V5 m ρ) c).arrAt 4 cfg1.N) slices_S10112x256_S10000x256_0_0 := by
  rw [← W6_arr m ρ c 4]
  show StableHlo.after hostOps2 (W6 m ρ c) (Proc.devRef .tc main_v41) = _
  after_results

/-- The adjacency array as the second region finds it is the one the first region found: nothing in between writes it,
    and the first region only reads it. -/
theorem adj_at_second (c : Dev nD) : V5 m ρ c main_v35 = V1 m ρ c main_v35 :=
  calc W5 m ρ c (Proc.devRef .tc main_v35)
    _ = W4 m ρ c (Proc.devRef .tc main_v35) := StableHlo.after_of_forall_not_mem (b := Proc.devRef .tc main_v35) _ _ (not_written hostOps1_2)
    _ = W3 m ρ c (Proc.devRef .tc main_v35) := StableHlo.after_of_forall_not_mem (b := Proc.devRef .tc main_v35) _ _ (not_written hostOps1_1)
    _ = W2 m ρ c (Proc.devRef .tc main_v35) := StableHlo.after_of_forall_not_mem (b := Proc.devRef .tc main_v35) _ _ (not_written hostOps1)
    _ = (dat0 (V1 m ρ) c).arrAt 0 cfg0.N := W2_arr m ρ c 0
    _ = (dat0 (V1 m ρ) c).A 0 := (dat0 (V1 m ρ) c).arrAt_in 0 rfl _
    _ = V1 m ρ c main_v35 := A_eq0 (V1 m ρ) c 0

/-- The inverse square roots of the degrees, as the second region finds them, are what the first region left. -/
theorem dis_at_second (c : Dev nD) : V5 m ρ c main_v36 = (dat0 (V1 m ρ) c).arrAt 1 cfg0.N :=
  calc W5 m ρ c (Proc.devRef .tc main_v36)
    _ = W4 m ρ c (Proc.devRef .tc main_v36) := StableHlo.after_of_forall_not_mem (b := Proc.devRef .tc main_v36) _ _ (not_written hostOps1_2)
    _ = W3 m ρ c (Proc.devRef .tc main_v36) := StableHlo.after_of_forall_not_mem (b := Proc.devRef .tc main_v36) _ _ (not_written hostOps1_1)
    _ = W2 m ρ c (Proc.devRef .tc main_v36) := StableHlo.after_of_forall_not_mem (b := Proc.devRef .tc main_v36) _ _ (not_written hostOps1)
    _ = (dat0 (V1 m ρ) c).arrAt 1 cfg0.N := W2_arr m ρ c 1

/-- The weights, as the second region finds them, are the launch contents of the second argument. -/
theorem weight_at_second (c : Dev nD) : V5 m ρ c main_arg1 = m ((c : Thread nD τ).loc main_arg1) :=
  calc W5 m ρ c (Proc.devRef .tc main_arg1)
    _ = W4 m ρ c (Proc.devRef .tc main_arg1) := StableHlo.after_of_forall_not_mem (b := Proc.devRef .tc main_arg1) _ _ (not_written hostOps1_2)
    _ = W3 m ρ c (Proc.devRef .tc main_arg1) := StableHlo.after_of_forall_not_mem (b := Proc.devRef .tc main_arg1) _ _ (not_written hostOps1_1)
    _ = W2 m ρ c (Proc.devRef .tc main_arg1) := StableHlo.after_of_forall_not_mem (b := Proc.devRef .tc main_arg1) _ _ (not_written hostOps1)
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (not_written hostOps0)
    _ = m ((c : Thread nD τ).loc main_arg1) := rfl

/-- The features at the host padding are the launch contents of the first argument. -/
theorem features_at_pad (c : Dev nD) : W3 m ρ c (Proc.devRef .tc main_arg0) = m ((c : Thread nD τ).loc main_arg0) :=
  calc W3 m ρ c (Proc.devRef .tc main_arg0)
    _ = W2 m ρ c (Proc.devRef .tc main_arg0) := StableHlo.after_of_forall_not_mem (b := Proc.devRef .tc main_arg0) _ _ (not_written hostOps1)
    _ = W1 m ρ c (Proc.devRef .tc main_arg0) := W2_of_ne m ρ c main_arg0 (by decide)
    _ = W0 m ρ c (Proc.devRef .tc main_arg0) := StableHlo.after_of_forall_not_mem (b := Proc.devRef .tc main_arg0) _ _ (not_written hostOps0)
    _ = m ((c : Thread nD τ).loc main_arg0) := rfl

/-- The scaled features the second region reads: the features padded below with the converted integer zero, times the
    inverse square roots of the degrees broadcast along each row. -/
theorem scaled_at_second (c : Dev nD) :
    V5 m ρ c main_v39
      = mulf (pad S10112x256 ![0, 0] ![112, 0] ![0, 0] (m ((c : Thread nD τ).loc main_arg0))
            (sitofp .f32 (constantI S_ 32 0#32 : IVec S_ 32) : FVec F S_ .f32) pads_S10000x256_S10112x256_01120_000 h_S_)
          (broadcastInDim S10112x256 ![0, 1] bcast_S10112x1_S10112x256_0_1 ((dat0 (V1 m ρ) c).arrAt 1 cfg0.N)) := by
  have h36 : W4 m ρ c (Proc.devRef .tc main_v36) = (dat0 (V1 m ρ) c).arrAt 1 cfg0.N :=
    calc W4 m ρ c (Proc.devRef .tc main_v36)
      _ = W3 m ρ c (Proc.devRef .tc main_v36) := StableHlo.after_of_forall_not_mem (b := Proc.devRef .tc main_v36) _ _ (not_written hostOps1_1)
      _ = W2 m ρ c (Proc.devRef .tc main_v36) := StableHlo.after_of_forall_not_mem (b := Proc.devRef .tc main_v36) _ _ (not_written hostOps1)
      _ = (dat0 (V1 m ρ) c).arrAt 1 cfg0.N := W2_arr m ρ c 1
  have h9 : W3 m ρ c (Proc.devRef .tc main_c_9) = (constantI S_ 32 0#32 : IVec S_ 32) := by
    show StableHlo.after hostOps1 (W2 m ρ c) (Proc.devRef .tc main_c_9) = _
    after_results
  have h37 : W4 m ρ c (Proc.devRef .tc main_v37)
      = pad S10112x256 ![0, 0] ![112, 0] ![0, 0] (m ((c : Thread nD τ).loc main_arg0))
          (sitofp .f32 (constantI S_ 32 0#32 : IVec S_ 32) : FVec F S_ .f32) pads_S10000x256_S10112x256_01120_000 h_S_ := by
    rw [← features_at_pad m ρ c, ← h9]
    show StableHlo.after hostOps1_1 (W3 m ρ c) (Proc.devRef .tc main_v37) = _
    after_results
    rfl
  rw [← h36, ← h37]
  show StableHlo.after hostOps1_2 (W4 m ρ c) (Proc.devRef .tc main_v39) = _
  after_results

end Cert.KernelIdeal.Fold

end
-- ==== Proof.DegreeArray.lean ====
/-
  The first grid region, as one function of the adjacency array it reads. The grid has 79 points; point t loads the
  128 rows 128 t … 128 t + 127 of the adjacency array (all 10112 columns) and stores a column of 128 numbers, one per
  row, each a function of that row alone. The 79 column blocks tile the [10112, 1] output, so after the region the
  output at row r is that function of row r of the adjacency array.
-/
import proofs.«133764_j58703613001790_1_alg».proof.Proof.Gen.KernelIdeal.Frame
import Idealize.ShloMosaic.Lib.Pipeline.Value
import Idealize.ShloMosaic.Lib.ValueIdx

set_option maxRecDepth 16384

noncomputable section

namespace Cert.KernelIdeal.DegreeArray

open Idealize.ShloMosaic Idealize.ShloMosaic.TcCoe Idealize.ShloMosaic.ValueIdx
open Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

theorem offsets_zero : (![0, 0] : Fin 2 → Nat) = fun _ => 0 := funext fun a => by fin_cases a <;> rfl

/-- The output array as a function of the adjacency array: at row r, the row function of row r. -/
abbrev rowwise (f : (Fin 10112 → EReal) → EReal) (A : S10112x10112.Idx → EReal) : S10112x1.Idx → EReal :=
  fun i => f (fun k => A (ix2 (i 0) k))

/-- The block index maps over the grid: point t reads row block t of the adjacency array (its one column block) and
    writes row block t of the output. -/
theorem index_facts : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

/-- What point t writes back is block t of the row-wise function of the adjacency array as the region finds it. -/
theorem flushed_eq (f : (Fin 10112 → EReal) → EReal)
    (hpay : ∀ (x0 : Vec Ideal S128x10112 .bf16) (y : S128x1.Idx), k0_pay1 (F := Ideal) x0 y = f (fun k => x0 (ix2 (y 0) k)))
    (c : Dev nD) (t : Fin cfg0.N) :
    (dat0 V c).flushed 1 t = ((cfg0.win 1).blk t).view.read (Elt Ideal) (rowwise f (V c main_v35)) := by
  show (cfg0.win 1).cut (grid0.coords t) ((dat0 V c).after 1 t) = _
  rw [after0_1]
  unfold out0_1
  rw [View.canon_unit_zero offsets_zero]
  simp only [View.ld_unit_zero (S := S128x10112) offsets_zero]
  obtain ⟨e0, e1, e2, e3⟩ := index_facts t
  funext j
  show k0_pay1 (F := Ideal) (iblk0 V c 0 t) j = f (fun k => V c main_v35 (ix2 ((((cfg0.win 1).blk t).view.emb j) 0) k))
  rw [hpay]
  refine congrArg f (funext fun k => ?_)
  show V c main_v35 (((cfg0.win 0).blk t).view.emb (ix2 (j 0) k)) = _
  refine congrArg (V c main_v35) (funext fun a => Fin.ext ?_)
  match a with
  | ⟨0, _⟩ => show win0_0.index t (0 : Fin 2) * 128 + 1 * (j 0).val = win0_1.index t (0 : Fin 2) * 128 + 1 * (j 0).val; omega
  | ⟨1, _⟩ => show win0_0.index t (1 : Fin 2) * 10112 + 1 * k.val = k.val; omega

/-- An index of the output is in point t's block iff each coordinate is in the block's range on its axis. -/
theorem mem_blk (t : Fin cfg0.N) (i : S10112x1.Idx) :
    i ∈ ((cfg0.win 1).blk t).view.set ↔ ∀ a : Fin 2, win0_1.index t a * S128x1.size a ≤ (i a).val ∧ (i a).val < win0_1.index t a * S128x1.size a + S128x1.size a := by
  show i ∈ ((View.whole main_v36).slice (win0_1.rect t)).set ↔ _
  rw [View.set_slice_whole, Rect.mem_set_unit]
  exact Iff.rfl

/-- Every row of the output lies in some point's block: row r in the block of point r / 128. -/
theorem cover (i : S10112x1.Idx) : ∃ t : Fin cfg0.N, (cfg0.win 1).flush t = true ∧ i ∈ ((cfg0.win 1).blk t).view.set := by
  have hi0 : (i 0).val < 10112 := (i 0).isLt
  have hi1 : (i 1).val < 1 := (i 1).isLt
  have hN : cfg0.N = 79 := N_0
  refine ⟨⟨(i 0).val / 128, by rw [hN]; omega⟩, flush0_1 _, ?_⟩
  rw [mem_blk]
  obtain ⟨e0, e1, e2, e3⟩ := index_facts ⟨(i 0).val / 128, by rw [hN]; omega⟩
  intro a
  match a with
  | ⟨0, _⟩ => show win0_1.index _ (0 : Fin 2) * 128 ≤ (i 0).val ∧ (i 0).val < win0_1.index _ (0 : Fin 2) * 128 + 128; rw [e2]; show (i 0).val / 128 * 128 ≤ (i 0).val ∧ (i 0).val < (i 0).val / 128 * 128 + 128; omega
  | ⟨1, _⟩ => show win0_1.index _ (1 : Fin 2) * 1 ≤ (i 1).val ∧ (i 1).val < win0_1.index _ (1 : Fin 2) * 1 + 1; rw [e3]; omega

/-- After the region the output array is the row-wise function of the adjacency array. -/
theorem array_eq (f : (Fin 10112 → EReal) → EReal)
    (hpay : ∀ (x0 : Vec Ideal S128x10112 .bf16) (y : S128x1.Idx), k0_pay1 (F := Ideal) x0 y = f (fun k => x0 (ix2 (y 0) k)))
    (c : Dev nD) : (dat0 V c).arrAt 1 cfg0.N = rowwise f (V c main_v35) :=
  (dat0 V c).arrAt_eq_of_cover 1 (rowwise f (V c main_v35)) (fun t _ => flushed_eq V f hpay c t) cover

end Cert.KernelIdeal.DegreeArray

end
-- ==== Proof.AggregateArray.lean ====
/-
  The second grid region, as one function of the four arrays it reads. The grid has 79 points; point t loads the 128
  rows 128 t … 128 t + 127 of the adjacency array and of the column of inverse square roots, and the whole scaled
  feature and weight arrays, and stores a [128, 256] block whose entry (p, o) is a function of row p of the adjacency
  block, the scaled features, the p-th inverse square root, the weights and o. The 79 blocks tile the [10112, 256]
  output, so after the region the output at (r, o) is that function of row r.
-/
import proofs.«133764_j58703613001790_1_alg».proof.Proof.Gen.KernelIdeal.Frame
import Idealize.ShloMosaic.Lib.Pipeline.Value
import Idealize.ShloMosaic.Lib.ValueIdx

set_option maxRecDepth 16384

noncomputable section

namespace Cert.KernelIdeal.AggregateArray

open Idealize.ShloMosaic Idealize.ShloMosaic.TcCoe Idealize.ShloMosaic.ValueIdx
open Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

theorem offsets_zero : (![0, 0] : Fin 2 → Nat) = fun _ => 0 := funext fun a => by fin_cases a <;> rfl

/-- The output array as a function of the four input arrays: at (r, o), the entry function of row r of the adjacency
    array, the scaled features, the r-th inverse square root, the weights and the column o. -/
abbrev rowwise (g : (Fin 10112 → EReal) → (S10112x256.Idx → EReal) → EReal → (S256x256.Idx → EReal) → Fin 256 → EReal)
    (A : S10112x10112.Idx → EReal) (X : S10112x256.Idx → EReal) (D : S10112x1.Idx → EReal) (W : S256x256.Idx → EReal) :
    S10112x256.Idx → EReal :=
  fun i => g (fun k => A (ix2 (i 0) k)) X (D (ix2 (i 0) (0 : Fin 1))) W (i 1)

/-- The block index maps over the grid: point t reads row block t of the adjacency array and of the inverse square
    roots, the whole scaled features and weights, and writes row block t of the output. -/
theorem index_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- What point t writes back is block t of the row-wise function of the arrays as the region finds them. -/
theorem flushed_eq (g : (Fin 10112 → EReal) → (S10112x256.Idx → EReal) → EReal → (S256x256.Idx → EReal) → Fin 256 → EReal)
    (hpay : ∀ (x0 : Vec Ideal S128x10112 .bf16) (x3 : Vec Ideal S10112x256 .f32) (x6 : Vec Ideal S128x1 .f32) (x10 : Vec Ideal S256x256 .f32)
      (y : S128x256.Idx), k1_pay1 (F := Ideal) x0 x3 x6 x10 y = g (fun k => x0 (ix2 (y 0) k)) x3 (x6 (ix2 (y 0) (0 : Fin 1))) x10 (y 1))
    (c : Dev nD) (t : Fin cfg1.N) :
    (dat1 V c).flushed 4 t
      = ((cfg1.win 4).blk t).view.read (Elt Ideal) (rowwise g (V c main_v35) (V c main_v39) (V c main_v36) (V c main_arg1)) := by
  show (cfg1.win 4).cut (grid1.coords t) ((dat1 V c).after 4 t) = _
  rw [after1_4]
  unfold out1_4
  rw [View.canon_unit_zero offsets_zero]
  simp only [View.ld_unit_zero (S := S128x10112) offsets_zero, View.ld_unit_zero (S := S10112x256) offsets_zero,
    View.ld_unit_zero (S := S128x1) offsets_zero, View.ld_unit_zero (S := S256x256) offsets_zero]
  obtain ⟨e00, e01, e10, e11, e20, e21, e30, e31, e40, e41⟩ := index_facts t
  have hX : iblk1 V c 1 t = V c main_v39 := by
    funext y
    show V c main_v39 (((cfg1.win 1).blk t).view.emb y) = V c main_v39 y
    refine congrArg (V c main_v39) (funext fun a => Fin.ext ?_)
    match a with
    | ⟨0, _⟩ => show win1_1.index t (0 : Fin 2) * 10112 + 1 * (y 0).val = (y 0).val; omega
    | ⟨1, _⟩ => show win1_1.index t (1 : Fin 2) * 256 + 1 * (y 1).val = (y 1).val; omega
  have hW : iblk1 V c 3 t = V c main_arg1 := by
    funext y
    show V c main_arg1 (((cfg1.win 3).blk t).view.emb y) = V c main_arg1 y
    refine congrArg (V c main_arg1) (funext fun a => Fin.ext ?_)
    match a with
    | ⟨0, _⟩ => show win1_3.index t (0 : Fin 2) * 256 + 1 * (y 0).val = (y 0).val; omega
    | ⟨1, _⟩ => show win1_3.index t (1 : Fin 2) * 256 + 1 * (y 1).val = (y 1).val; omega
  funext j
  show k1_pay1 (F := Ideal) (iblk1 V c 0 t) (iblk1 V c 1 t) (iblk1 V c 2 t) (iblk1 V c 3 t) j
    = g (fun k => V c main_v35 (ix2 ((((cfg1.win 4).blk t).view.emb j) 0) k)) (V c main_v39)
        (V c main_v36 (ix2 ((((cfg1.win 4).blk t).view.emb j) 0) (0 : Fin 1))) (V c main_arg1) ((((cfg1.win 4).blk t).view.emb j) 1)
  rw [hpay, hX, hW]
  have hA : (fun k => iblk1 V c 0 t (ix2 (j 0) k)) = fun k => V c main_v35 (ix2 ((((cfg1.win 4).blk t).view.emb j) 0) k) := by
    funext k
    show V c main_v35 (((cfg1.win 0).blk t).view.emb (ix2 (j 0) k)) = _
    refine congrArg (V c main_v35) (funext fun a => Fin.ext ?_)
    match a with
    | ⟨0, _⟩ => show win1_0.index t (0 : Fin 2) * 128 + 1 * (j 0).val = win1_4.index t (0 : Fin 2) * 128 + 1 * (j 0).val; omega
    | ⟨1, _⟩ => show win1_0.index t (1 : Fin 2) * 10112 + 1 * k.val = k.val; omega
  have hD : iblk1 V c 2 t (ix2 (j 0) (0 : Fin 1)) = V c main_v36 (ix2 ((((cfg1.win 4).blk t).view.emb j) 0) (0 : Fin 1)) := by
    show V c main_v36 (((cfg1.win 2).blk t).view.emb (ix2 (j 0) (0 : Fin 1))) = _
    refine congrArg (V c main_v36) (funext fun a => Fin.ext ?_)
    match a with
    | ⟨0, _⟩ => show win1_2.index t (0 : Fin 2) * 128 + 1 * (j 0).val = win1_4.index t (0 : Fin 2) * 128 + 1 * (j 0).val; omega
    | ⟨1, _⟩ => show win1_2.index t (1 : Fin 2) * 1 + 1 * 0 = 0; omega
  have hO : (j 1) = ((((cfg1.win 4).blk t).view.emb j) 1) := by
    apply Fin.ext
    show (j 1).val = win1_4.index t (1 : Fin 2) * 256 + 1 * (j 1).val
    omega
  rw [hA, hD, ← hO]

/-- An index of the output is in point t's block iff each coordinate is in the block's range on its axis. -/
theorem mem_blk (t : Fin cfg1.N) (i : S10112x256.Idx) :
    i ∈ ((cfg1.win 4).blk t).view.set ↔ ∀ a : Fin 2, win1_4.index t a * S128x256.size a ≤ (i a).val ∧ (i a).val < win1_4.index t a * S128x256.size a + S128x256.size a := by
  show i ∈ ((View.whole main_v40).slice (win1_4.rect t)).set ↔ _
  rw [View.set_slice_whole, Rect.mem_set_unit]
  exact Iff.rfl

/-- Every entry of the output lies in some point's block: row r in the block of point r / 128. -/
theorem cover (i : S10112x256.Idx) : ∃ t : Fin cfg1.N, (cfg1.win 4).flush t = true ∧ i ∈ ((cfg1.win 4).blk t).view.set := by
  have hi0 : (i 0).val < 10112 := (i 0).isLt
  have hi1 : (i 1).val < 256 := (i 1).isLt
  have hN : cfg1.N = 79 := N_1
  refine ⟨⟨(i 0).val / 128, by rw [hN]; omega⟩, flush1_4 _, ?_⟩
  rw [mem_blk]
  obtain ⟨e00, e01, e10, e11, e20, e21, e30, e31, e40, e41⟩ := index_facts ⟨(i 0).val / 128, by rw [hN]; omega⟩
  intro a
  match a with
  | ⟨0, _⟩ => show win1_4.index _ (0 : Fin 2) * 128 ≤ (i 0).val ∧ (i 0).val < win1_4.index _ (0 : Fin 2) * 128 + 128; rw [e40]; show (i 0).val / 128 * 128 ≤ (i 0).val ∧ (i 0).val < (i 0).val / 128 * 128 + 128; omega
  | ⟨1, _⟩ => show win1_4.index _ (1 : Fin 2) * 256 ≤ (i 1).val ∧ (i 1).val < win1_4.index _ (1 : Fin 2) * 256 + 256; rw [e41]; omega

/-- After the region the output array is the row-wise function of the four arrays. -/
theorem array_eq (g : (Fin 10112 → EReal) → (S10112x256.Idx → EReal) → EReal → (S256x256.Idx → EReal) → Fin 256 → EReal)
    (hpay : ∀ (x0 : Vec Ideal S128x10112 .bf16) (x3 : Vec Ideal S10112x256 .f32) (x6 : Vec Ideal S128x1 .f32) (x10 : Vec Ideal S256x256 .f32)
      (y : S128x256.Idx), k1_pay1 (F := Ideal) x0 x3 x6 x10 y = g (fun k => x0 (ix2 (y 0) k)) x3 (x6 (ix2 (y 0) (0 : Fin 1))) x10 (y 1))
    (c : Dev nD) :
    (dat1 V c).arrAt 4 cfg1.N = rowwise g (V c main_v35) (V c main_v39) (V c main_v36) (V c main_arg1) :=
  (dat1 V c).arrAt_eq_of_cover 4 (rowwise g (V c main_v35) (V c main_v39) (V c main_v36) (V c main_arg1))
    (fun t _ => flushed_eq V g hpay c t) cover

end Cert.KernelIdeal.AggregateArray

end
-- ==== Proof.LibScatterSet.lean ====
import Idealize.ShloMosaic.PureOps.ShapeOps
import Idealize.ShloMosaic.Lib.ValueIdx

/-!
# General facts about the host scatter

The scatter is a left fold, over the update indices in row-major order, of one step per update
index: the step of update index `j` replaces the element at `j`'s result index (when that is
inside the operand) by the body applied to that element and the update's. This file holds
facts that follow from that shape alone: a predicate kept by every step holds of the result; a
relation between two arrays kept by every pair of steps holds between two scatters over the
same update shape; a constant written at a hit index is read back there; and the result index
of the rank-2 scatter whose index vectors are (row, column) pairs.
-/

namespace Idealize.ShloMosaic.ScatterSet

open Idealize.ShloMosaic

/-- A predicate that holds of the start of a left fold and is kept by every step holds of the
    fold's result. -/
theorem foldl_inv {σ ι : Type} (P : σ → Prop) (g : σ → ι → σ) (l : List ι) (a : σ) (h0 : P a)
    (hs : ∀ r n, P r → P (g r n)) : P (l.foldl g a) := by
  induction l generalizing a with
  | nil => exact h0
  | cons n l ih => exact ih _ (hs _ _ h0)

/-- A relation that holds between the starts of two left folds over the SAME list and is kept
    by every pair of steps holds between the two results. -/
theorem foldl_rel {σ τ ι : Type} (R : σ → τ → Prop) (g : σ → ι → σ) (g' : τ → ι → τ) (l : List ι)
    (a : σ) (a' : τ) (h0 : R a a') (hs : ∀ r r' n, R r r' → R (g r n) (g' r' n)) :
    R (l.foldl g a) (l.foldl g' a') := by
  induction l generalizing a a' with
  | nil => exact h0
  | cons n l ih => exact ih _ _ (hs _ _ _ h0)

/-- A predicate that the step of ONE member `n` of the list establishes from any state, and that
    every step keeps, holds of the fold's result. -/
theorem foldl_mem {σ ι : Type} (Q : σ → Prop) (g : σ → ι → σ) (l : List ι) (n : ι) (hn : n ∈ l) (a : σ)
    (hest : ∀ r, Q (g r n)) (hpres : ∀ r m, Q r → Q (g r m)) : Q (l.foldl g a) := by
  induction l generalizing a with
  | nil => cases hn
  | cons m l ih =>
    rcases List.mem_cons.1 hn with rfl | hn
    · exact foldl_inv Q g l _ (hest a) hpres
    · exact ih hn _

variable {s si u : Shape} {α : Type} {w : Nat}

/-- INVARIANT. A predicate on arrays that holds of the operand, and that is kept whenever ONE
    element — at the result index `i` of some update index `j` — is replaced by the body applied
    to it and to `j`'s update, holds of the scatter's result. -/
theorem scatter_inv (d : ScatterDims s si u) (f : α → α → α) (x : s.Idx → α) (idx : IVec si w) (upd : u.Idx → α)
    (P : (s.Idx → α) → Prop) (h0 : P x)
    (hstep : ∀ (r : s.Idx → α) (j : u.Idx) (i : s.Idx), P r → d.resultIdx? j idx = some i →
      P (fun i' => if i' = i then f (r i) (upd j) else r i')) :
    P (Host.scatter d f x idx upd) := by
  unfold Host.scatter
  refine foldl_inv P _ _ x h0 ?_
  intro r n hr
  cases h : d.resultIdx? (u.rowMajor.symm n) idx with
  | none => exact hr
  | some i => exact hstep r _ i hr h

/-- RELATIONAL INVARIANT. Two scatters over the SAME update shape (operand shapes, index shapes,
    element types, bodies, dimension numbers all possibly different): a relation between arrays
    that holds between the two operands and is kept when both sides take the step of the same
    update index `j` holds between the two results. -/
theorem scatter_rel {s' si' : Shape} {β : Type} {w' : Nat}
    (d : ScatterDims s si u) (f : α → α → α) (x : s.Idx → α) (idx : IVec si w) (upd : u.Idx → α)
    (d' : ScatterDims s' si' u) (f' : β → β → β) (x' : s'.Idx → β) (idx' : IVec si' w') (upd' : u.Idx → β)
    (R : (s.Idx → α) → (s'.Idx → β) → Prop) (h0 : R x x')
    (hstep : ∀ (r : s.Idx → α) (r' : s'.Idx → β) (j : u.Idx), R r r' →
      R (match d.resultIdx? j idx with
          | some i => fun i' => if i' = i then f (r i) (upd j) else r i'
          | none => r)
        (match d'.resultIdx? j idx' with
          | some i => fun i' => if i' = i then f' (r' i) (upd' j) else r' i'
          | none => r')) :
    R (Host.scatter d f x idx upd) (Host.scatter d' f' x' idx' upd') := by
  unfold Host.scatter
  exact foldl_rel R _ _ _ x x' h0 (fun r r' n hr => hstep r r' (u.rowMajor.symm n) hr)

/-- A HIT WITH A CONSTANT WRITTEN. The body returns the update and every update is the constant
    `c`: at the result index `i` of any update index `j` the scatter's result is `c` (the step of
    `j` writes `c` at `i`, and whatever a later step does at `i`, it writes `c` again). -/
theorem scatter_const_hit (d : ScatterDims s si u) (x : s.Idx → α) (idx : IVec si w) (c : α)
    (j : u.Idx) (i : s.Idx) (hj : d.resultIdx? j idx = some i) :
    Host.scatter d (fun _ b => b) x idx (fun _ => c) i = c := by
  unfold Host.scatter
  refine foldl_mem (fun r : s.Idx → α => r i = c) _ _ (u.rowMajor j) (List.mem_finRange _) x ?_ ?_
  · intro r
    simp only [Equiv.symm_apply_apply, hj, if_true]
  · intro r m hr
    cases h : d.resultIdx? (u.rowMajor.symm m) idx with
    | none => exact hr
    | some i0 =>
      show (if i = i0 then c else r i) = c
      split
      · rfl
      · exact hr

/-! ## The rank-2 scatter whose index vectors are (row, column) pairs

Operand of shape `R × C`, scatter indices `E × 2` (row `j` of the index array is the pair of
coordinates of update `j`), updates of shape `E`: no window axes, both operand axes inserted, the
index vector's components going to the operand's axes `0` and `1` in order. Update `j` lands at
(row, column) = the two signed words of row `j` of the index array, when both are in range. -/

section pairs

variable {R C E w : Nat}

/-- The dimension numbers of the pairs scatter, as the structure literal over an arbitrary
    well-formedness proof. -/
abbrev pairsDims (wf : ScatterDims.WF (⟨2, ![R, C]⟩ : Shape) ⟨2, ![E, 2]⟩ ⟨1, ![E]⟩ [] [0, 1] [0, 1] 1) :
    ScatterDims ⟨2, ![R, C]⟩ ⟨2, ![E, 2]⟩ ⟨1, ![E]⟩ :=
  { updateWindowDims := [], insertedWindowDims := [0, 1], scatterDimsToOperandDims := [0, 1], indexVectorDim := 1, wf := wf }

/-- Both operand axes are inserted: the window coordinate is `0` on every operand axis. -/
theorem pairs_window (wf : ScatterDims.WF (⟨2, ![R, C]⟩ : Shape) ⟨2, ![E, 2]⟩ ⟨1, ![E]⟩ [] [0, 1] [0, 1] 1)
    (j : (⟨1, ![E]⟩ : Shape).Idx) (a : Fin 2) : (pairsDims wf).window j a = 0 := by
  unfold ScatterDims.window
  rw [dif_neg]
  show a ∉ (⟨2, ![R, C]⟩ : Shape).kept [0, 1]
  have : (⟨2, ![R, C]⟩ : Shape).kept [0, 1] = [] := rfl
  rw [this]; exact List.not_mem_nil

/-- Component `0` of update `j`'s start index is read at position `(j, 0)` of the index array. -/
theorem pairs_siIdx0 (wf : ScatterDims.WF (⟨2, ![R, C]⟩ : Shape) ⟨2, ![E, 2]⟩ ⟨1, ![E]⟩ [] [0, 1] [0, 1] 1)
    (j : (⟨1, ![E]⟩ : Shape).Idx) (h : 0 < (pairsDims wf).scatterDimsToOperandDims.length) :
    (pairsDims wf).siIdx j ⟨0, h⟩ = ValueIdx.ix2 (j 0) (0 : Fin 2) := by
  funext b
  match b with
  | ⟨0, _⟩ => rfl
  | ⟨1, _⟩ => rfl

/-- Component `1` of update `j`'s start index is read at position `(j, 1)` of the index array. -/
theorem pairs_siIdx1 (wf : ScatterDims.WF (⟨2, ![R, C]⟩ : Shape) ⟨2, ![E, 2]⟩ ⟨1, ![E]⟩ [] [0, 1] [0, 1] 1)
    (j : (⟨1, ![E]⟩ : Shape).Idx) (h : 1 < (pairsDims wf).scatterDimsToOperandDims.length) :
    (pairsDims wf).siIdx j ⟨1, h⟩ = ValueIdx.ix2 (j 0) (1 : Fin 2) := by
  funext b
  match b with
  | ⟨0, _⟩ => rfl
  | ⟨1, _⟩ => rfl

/-- The start on operand axis `0` (rows) is the signed word at `(j, 0)` of the index array. -/
theorem pairs_start0 (wf : ScatterDims.WF (⟨2, ![R, C]⟩ : Shape) ⟨2, ![E, 2]⟩ ⟨1, ![E]⟩ [] [0, 1] [0, 1] 1)
    (idx : IVec ⟨2, ![E, 2]⟩ w) (j : (⟨1, ![E]⟩ : Shape).Idx) :
    (pairsDims wf).start j idx (0 : Fin 2) = (idx (ValueIdx.ix2 (j 0) (0 : Fin 2))).toInt := by
  have hm : (0 : Fin 2) ∈ ([0, 1] : List (Fin 2)) := by decide
  unfold ScatterDims.start
  rw [dif_pos hm]
  congr 2
  exact pairs_siIdx0 wf j _

/-- The start on operand axis `1` (columns) is the signed word at `(j, 1)` of the index array. -/
theorem pairs_start1 (wf : ScatterDims.WF (⟨2, ![R, C]⟩ : Shape) ⟨2, ![E, 2]⟩ ⟨1, ![E]⟩ [] [0, 1] [0, 1] 1)
    (idx : IVec ⟨2, ![E, 2]⟩ w) (j : (⟨1, ![E]⟩ : Shape).Idx) :
    (pairsDims wf).start j idx (1 : Fin 2) = (idx (ValueIdx.ix2 (j 0) (1 : Fin 2))).toInt := by
  have hm : (1 : Fin 2) ∈ ([0, 1] : List (Fin 2)) := by decide
  unfold ScatterDims.start
  rw [dif_pos hm]
  congr 2
  exact pairs_siIdx1 wf j _

/-- THE RESULT INDEX OF THE PAIRS SCATTER. When the two signed words of row `j` of the index array
    are a row `a < R` and a column `b < C`, update `j` lands at `(a, b)`. -/
theorem resultIdx?_pairs (wf : ScatterDims.WF (⟨2, ![R, C]⟩ : Shape) ⟨2, ![E, 2]⟩ ⟨1, ![E]⟩ [] [0, 1] [0, 1] 1)
    (idx : IVec ⟨2, ![E, 2]⟩ w) (j : (⟨1, ![E]⟩ : Shape).Idx) (a : Fin R) (b : Fin C)
    (ha : (idx (ValueIdx.ix2 (j 0) (0 : Fin 2))).toInt = (a.val : Int))
    (hb : (idx (ValueIdx.ix2 (j 0) (1 : Fin 2))).toInt = (b.val : Int)) :
    ({ updateWindowDims := [], insertedWindowDims := [0, 1], scatterDimsToOperandDims := [0, 1], indexVectorDim := 1, wf := wf } :
      ScatterDims ⟨2, ![R, C]⟩ ⟨2, ![E, 2]⟩ ⟨1, ![E]⟩).resultIdx? j idx = some (ValueIdx.ix2 a b) := by
  have h0 : (pairsDims wf).start j idx (0 : Fin 2) + (pairsDims wf).window j (0 : Fin 2) = (a.val : Int) := by
    rw [pairs_start0, pairs_window, ha]; simp
  have h1 : (pairsDims wf).start j idx (1 : Fin 2) + (pairsDims wf).window j (1 : Fin 2) = (b.val : Int) := by
    rw [pairs_start1, pairs_window, hb]; simp
  show (pairsDims wf).resultIdx? j idx = _
  unfold ScatterDims.resultIdx?
  have hall : ∀ x : Fin 2, 0 ≤ (pairsDims wf).start j idx x + (pairsDims wf).window j x ∧
      (pairsDims wf).start j idx x + (pairsDims wf).window j x < ((⟨2, ![R, C]⟩ : Shape).size x : Int) := by
    intro x
    match x with
    | ⟨0, _⟩ =>
      show 0 ≤ (pairsDims wf).start j idx (0 : Fin 2) + (pairsDims wf).window j (0 : Fin 2) ∧
        (pairsDims wf).start j idx (0 : Fin 2) + (pairsDims wf).window j (0 : Fin 2) < (R : Int)
      rw [h0]; exact ⟨Int.natCast_nonneg _, by exact_mod_cast a.isLt⟩
    | ⟨1, _⟩ =>
      show 0 ≤ (pairsDims wf).start j idx (1 : Fin 2) + (pairsDims wf).window j (1 : Fin 2) ∧
        (pairsDims wf).start j idx (1 : Fin 2) + (pairsDims wf).window j (1 : Fin 2) < (C : Int)
      rw [h1]; exact ⟨Int.natCast_nonneg _, by exact_mod_cast b.isLt⟩
  rw [dif_pos hall]
  congr 1
  funext x
  match x with
  | ⟨0, _⟩ => apply Fin.ext; show ((pairsDims wf).start j idx (0 : Fin 2) + (pairsDims wf).window j (0 : Fin 2)).toNat = a.val; rw [h0]; simp
  | ⟨1, _⟩ => apply Fin.ext; show ((pairsDims wf).start j idx (1 : Fin 2) + (pairsDims wf).window j (1 : Fin 2)).toNat = b.val; rw [h1]; simp

end pairs

end Idealize.ShloMosaic.ScatterSet
-- ==== Proof.Adjacency.lean ====
import proofs.«133764_j58703613001790_1_alg».proof.Proof.Gen.KernelIdeal
import proofs.«133764_j58703613001790_1_alg».proof.Proof.Gen.ReferenceIdeal.Read
import proofs.«133764_j58703613001790_1_alg».proof.Proof.LibScatterSet
import Idealize.ShloMosaic.Lib.Pipeline.Value
import Idealize.ShloMosaic.Lib.ValueIdx

/-!
# The adjacency matrix: the kernel's padded one against the reference's

Both programs build a 0/1 adjacency matrix on the host by two scatters of the constant one into
zeros: first the diagonal `(i, i)`, `i < 10000`, then the edges `(src e, dst e)`, `e < 320000`,
read off the two rows of the integer argument. The reference's matrix is `10000 × 10000`; the
kernel's is padded to `10112 × 10112`, and a negative index is wrapped by `+10112` there where
the reference wraps by `+10000`. Under the hypothesis that every word of the argument is in
`[0, 10000)` no index is negative, the wraps do nothing, and the two matrices agree on the
`10000 × 10000` corner, the kernel's being zero outside it.
-/

noncomputable section

namespace Cert.Adjacency

open Idealize.ShloMosaic Idealize.ShloMosaic.TcCoe Idealize.SL.Sem Idealize.ShloMosaic.StableHlo

/-! ## The kernel's host operations, one stage at a time -/

section Kernel

open Cert.KernelIdeal Cert.KernelIdeal.Gen

variable {F : FTy → Type} [FloatOps F]

/-- `%0`: the row numbers `0 … 9999`. -/
def kv0 : (⟨S10000, .i32⟩ : BufTy).Contents (Elt F) :=
  iotaInDim S10000 32 0
/-- `%1`: row `0` of the argument (the sources), as a `1 × 320000` array. -/
def kv1 (x2 : (⟨S2x320000, .i32⟩ : BufTy).Contents (Elt F)) : (⟨S1x320000, .i32⟩ : BufTy).Contents (Elt F) :=
  extractStridedSlice S1x320000 ![0, 0] x2 slices_S2x320000_S1x320000_0_0
/-- `%2`: the sources, as a vector. -/
def kv2 (x2 : (⟨S2x320000, .i32⟩ : BufTy).Contents (Elt F)) : (⟨S320000, .i32⟩ : BufTy).Contents (Elt F) :=
  shapeCast _ (kv1 (F := F) x2) shapeCasts_S1x320000_S320000
/-- `%3`: row `1` of the argument (the destinations), as a `1 × 320000` array. -/
def kv3 (x2 : (⟨S2x320000, .i32⟩ : BufTy).Contents (Elt F)) : (⟨S1x320000, .i32⟩ : BufTy).Contents (Elt F) :=
  extractStridedSlice S1x320000 ![1, 0] x2 slices_S2x320000_S1x320000_1_0
/-- `%4`: the destinations, as a vector. -/
def kv4 (x2 : (⟨S2x320000, .i32⟩ : BufTy).Contents (Elt F)) : (⟨S320000, .i32⟩ : BufTy).Contents (Elt F) :=
  shapeCast _ (kv3 (F := F) x2) shapeCasts_S1x320000_S320000
/-- `%cst`: the scalar zero. -/
def kcst : (⟨S_, .bf16⟩ : BufTy).Contents (Elt F) :=
  constant S_ .bf16 0x0000#16
/-- `%5`: the padded matrix of zeros. -/
def kv5 : (⟨S10112x10112, .bf16⟩ : BufTy).Contents (Elt F) :=
  broadcastInDim S10112x10112 ![] bcast_S_S10112x10112 (kcst (F := F))
/-- `%c`: the integer zero. -/
def kc : (⟨S_, .i32⟩ : BufTy).Contents (Elt F) :=
  constantI S_ 32 0#32
/-- `%6`: zeros, one per row number. -/
def kv6 : (⟨S10000, .i32⟩ : BufTy).Contents (Elt F) :=
  broadcastInDim S10000 ![] bcast_S_S10000 (kc (F := F))
/-- `%7`: is the row number negative. -/
def kv7 : (⟨S10000, .i1⟩ : BufTy).Contents (Elt F) :=
  cmpi .slt (kv0 (F := F)) (kv6 (F := F))
/-- `%c_0`: the padded extent. -/
def kc_0 : (⟨S_, .i32⟩ : BufTy).Contents (Elt F) :=
  constantI S_ 32 10112#32
/-- `%8`: the padded extent, one per row number. -/
def kv8 : (⟨S10000, .i32⟩ : BufTy).Contents (Elt F) :=
  broadcastInDim S10000 ![] bcast_S_S10000 (kc_0 (F := F))
/-- `%9`: the row number plus the padded extent. -/
def kv9 : (⟨S10000, .i32⟩ : BufTy).Contents (Elt F) :=
  addi (kv0 (F := F)) (kv8 (F := F))
/-- `%10`: the row number, wrapped when negative: the diagonal's row coordinates. -/
def kv10 : (⟨S10000, .i32⟩ : BufTy).Contents (Elt F) :=
  select (kv7 (F := F)) (kv9 (F := F)) (kv0 (F := F))
/-- `%c_1`: the integer zero. -/
def kc_1 : (⟨S_, .i32⟩ : BufTy).Contents (Elt F) :=
  constantI S_ 32 0#32
/-- `%11`: zeros, one per row number. -/
def kv11 : (⟨S10000, .i32⟩ : BufTy).Contents (Elt F) :=
  broadcastInDim S10000 ![] bcast_S_S10000 (kc_1 (F := F))
/-- `%12`: is the row number negative. -/
def kv12 : (⟨S10000, .i1⟩ : BufTy).Contents (Elt F) :=
  cmpi .slt (kv0 (F := F)) (kv11 (F := F))
/-- `%c_2`: the padded extent. -/
def kc_2 : (⟨S_, .i32⟩ : BufTy).Contents (Elt F) :=
  constantI S_ 32 10112#32
/-- `%13`: the padded extent, one per row number. -/
def kv13 : (⟨S10000, .i32⟩ : BufTy).Contents (Elt F) :=
  broadcastInDim S10000 ![] bcast_S_S10000 (kc_2 (F := F))
/-- `%14`: the row number plus the padded extent. -/
def kv14 : (⟨S10000, .i32⟩ : BufTy).Contents (Elt F) :=
  addi (kv0 (F := F)) (kv13 (F := F))
/-- `%15`: the row number, wrapped when negative: the diagonal's column coordinates. -/
def kv15 : (⟨S10000, .i32⟩ : BufTy).Contents (Elt F) :=
  select (kv12 (F := F)) (kv14 (F := F)) (kv0 (F := F))
/-- `%16`: the diagonal's row coordinates as a column. -/
def kv16 : (⟨S10000x1, .i32⟩ : BufTy).Contents (Elt F) :=
  broadcastInDim S10000x1 ![0] bcast_S10000_S10000x1_0 (kv10 (F := F))
/-- `%17`: the diagonal's column coordinates as a column. -/
def kv17 : (⟨S10000x1, .i32⟩ : BufTy).Contents (Elt F) :=
  broadcastInDim S10000x1 ![0] bcast_S10000_S10000x1_0 (kv15 (F := F))
/-- `%18`: the diagonal's index array: row `i` is the pair `(i, i)`. -/
def kv18 : (⟨S10000x2, .i32⟩ : BufTy).Contents (Elt F) :=
  concatenate S10000x2 1 [⟨S10000x1, (kv16 (F := F))⟩, ⟨S10000x1, (kv17 (F := F))⟩] concatenates_S10000x1_S10000x1_S10000x2_d1
/-- `%cst_3`: the scalar one. -/
def kcst_3 : (⟨S_, .bf16⟩ : BufTy).Contents (Elt F) :=
  constant S_ .bf16 0x3F80#16
/-- `%19`: ones, one per diagonal entry. -/
def kv19 : (⟨S10000, .bf16⟩ : BufTy).Contents (Elt F) :=
  broadcastInDim S10000 ![] bcast_S_S10000 (kcst_3 (F := F))
/-- `%20`: the first scatter: ones written on the diagonal of the padded zeros. -/
def kv20 : (⟨S10112x10112, .bf16⟩ : BufTy).Contents (Elt F) :=
  Host.scatter scatter_S10112x10112_S10000x2_S10000_n_01_01_1 (fun _ b => b) (kv5 (F := F)) (kv18 (F := F)) (kv19 (F := F))
/-- `%c_4`: the integer zero. -/
def kc_4 : (⟨S_, .i32⟩ : BufTy).Contents (Elt F) :=
  constantI S_ 32 0#32
/-- `%21`: zeros, one per edge. -/
def kv21 : (⟨S320000, .i32⟩ : BufTy).Contents (Elt F) :=
  broadcastInDim S320000 ![] bcast_S_S320000 (kc_4 (F := F))
/-- `%22`: is the source negative. -/
def kv22 (x2 : (⟨S2x320000, .i32⟩ : BufTy).Contents (Elt F)) : (⟨S320000, .i1⟩ : BufTy).Contents (Elt F) :=
  cmpi .slt (kv2 (F := F) x2) (kv21 (F := F))
/-- `%c_5`: the padded extent. -/
def kc_5 : (⟨S_, .i32⟩ : BufTy).Contents (Elt F) :=
  constantI S_ 32 10112#32
/-- `%23`: the padded extent, one per edge. -/
def kv23 : (⟨S320000, .i32⟩ : BufTy).Contents (Elt F) :=
  broadcastInDim S320000 ![] bcast_S_S320000 (kc_5 (F := F))
/-- `%24`: the source plus the padded extent. -/
def kv24 (x2 : (⟨S2x320000, .i32⟩ : BufTy).Contents (Elt F)) : (⟨S320000, .i32⟩ : BufTy).Contents (Elt F) :=
  addi (kv2 (F := F) x2) (kv23 (F := F))
/-- `%25`: the source, wrapped when negative: the edges' row coordinates. -/
def kv25 (x2 : (⟨S2x320000, .i32⟩ : BufTy).Contents (Elt F)) : (⟨S320000, .i32⟩ : BufTy).Contents (Elt F) :=
  select (kv22 (F := F) x2) (kv24 (F := F) x2) (kv2 (F := F) x2)
/-- `%c_6`: the integer zero. -/
def kc_6 : (⟨S_, .i32⟩ : BufTy).Contents (Elt F) :=
  constantI S_ 32 0#32
/-- `%26`: zeros, one per edge. -/
def kv26 : (⟨S320000, .i32⟩ : BufTy).Contents (Elt F) :=
  broadcastInDim S320000 ![] bcast_S_S320000 (kc_6 (F := F))
/-- `%27`: is the destination negative. -/
def kv27 (x2 : (⟨S2x320000, .i32⟩ : BufTy).Contents (Elt F)) : (⟨S320000, .i1⟩ : BufTy).Contents (Elt F) :=
  cmpi .slt (kv4 (F := F) x2) (kv26 (F := F))
/-- `%c_7`: the padded extent. -/
def kc_7 : (⟨S_, .i32⟩ : BufTy).Contents (Elt F) :=
  constantI S_ 32 10112#32
/-- `%28`: the padded extent, one per edge. -/
def kv28 : (⟨S320000, .i32⟩ : BufTy).Contents (Elt F) :=
  broadcastInDim S320000 ![] bcast_S_S320000 (kc_7 (F := F))
/-- `%29`: the destination plus the padded extent. -/
def kv29 (x2 : (⟨S2x320000, .i32⟩ : BufTy).Contents (Elt F)) : (⟨S320000, .i32⟩ : BufTy).Contents (Elt F) :=
  addi (kv4 (F := F) x2) (kv28 (F := F))
/-- `%30`: the destination, wrapped when negative: the edges' column coordinates. -/
def kv30 (x2 : (⟨S2x320000, .i32⟩ : BufTy).Contents (Elt F)) : (⟨S320000, .i32⟩ : BufTy).Contents (Elt F) :=
  select (kv27 (F := F) x2) (kv29 (F := F) x2) (kv4 (F := F) x2)
/-- `%31`: the edges' row coordinates as a column. -/
def kv31 (x2 : (⟨S2x320000, .i32⟩ : BufTy).Contents (Elt F)) : (⟨S320000x1, .i32⟩ : BufTy).Contents (Elt F) :=
  broadcastInDim S320000x1 ![0] bcast_S320000_S320000x1_0 (kv25 (F := F) x2)
/-- `%32`: the edges' column coordinates as a column. -/
def kv32 (x2 : (⟨S2x320000, .i32⟩ : BufTy).Contents (Elt F)) : (⟨S320000x1, .i32⟩ : BufTy).Contents (Elt F) :=
  broadcastInDim S320000x1 ![0] bcast_S320000_S320000x1_0 (kv30 (F := F) x2)
/-- `%33`: the edges' index array: row `e` is the pair `(src e, dst e)`. -/
def kv33 (x2 : (⟨S2x320000, .i32⟩ : BufTy).Contents (Elt F)) : (⟨S320000x2, .i32⟩ : BufTy).Contents (Elt F) :=
  concatenate S320000x2 1 [⟨S320000x1, (kv31 (F := F) x2)⟩, ⟨S320000x1, (kv32 (F := F) x2)⟩] concatenates_S320000x1_S320000x1_S320000x2_d1
/-- `%cst_8`: the scalar one. -/
def kcst_8 : (⟨S_, .bf16⟩ : BufTy).Contents (Elt F) :=
  constant S_ .bf16 0x3F80#16
/-- `%34`: ones, one per edge. -/
def kv34 : (⟨S320000, .bf16⟩ : BufTy).Contents (Elt F) :=
  broadcastInDim S320000 ![] bcast_S_S320000 (kcst_8 (F := F))
/-- `%35`: the second scatter: ones written at the edges, over the first scatter's result. -/
def kv35 (x2 : (⟨S2x320000, .i32⟩ : BufTy).Contents (Elt F)) : (⟨S10112x10112, .bf16⟩ : BufTy).Contents (Elt F) :=
  Host.scatter scatter_S10112x10112_S320000x2_S320000_n_01_01_1 (fun _ b => b) (kv20 (F := F)) (kv33 (F := F) x2) (kv34 (F := F))

/-- THE KERNEL'S ADJACENCY MATRIX: the padded `10112 × 10112` array its host operations `%0 … %35`
    compute from the edge argument. -/
def adjK (x2 : (⟨S2x320000, .i32⟩ : BufTy).Contents (Elt F)) : (⟨S10112x10112, .bf16⟩ : BufTy).Contents (Elt F) :=
  kv35 (F := F) x2

/-- The kernel's adjacency at the ideal reals, typed as an integer array in, a float array out. -/
example (x2 : IVec S2x320000 32) : FVec Ideal S10112x10112 .bf16 := adjK (F := Ideal) x2

end Kernel

/-! ## General facts used on both sides -/

section Generic

open ValueIdx

/-- A word that is not negative is not below zero in the signed order, so the wrap
    `select (v < 0) (v + N) v` keeps it, whatever the wrap constant `N`. -/
theorem wrap_scalar (v N : BitVec 32) (h : 0 ≤ v.toInt) :
    Scalar.select (IntOp.cmpi .slt v 0#32) (IntOp.addi v N) v = v := by
  have hs : v.slt 0#32 = false := by
    simp only [BitVec.slt, BitVec.toInt_zero, decide_eq_false_iff_not, not_lt]; exact h
  unfold Scalar.select IntOp.cmpi
  simp only [hs]
  exact if_neg (by decide)

/-- The wrap of a vector of words, read at an index whose word is not negative, is that word. -/
theorem wrap_apply {S : Shape} (v : IVec S 32) (hb : (⟨0, ![]⟩ : Shape).BroadcastsInDim S ![]) (N : BitVec 32) (i : S.Idx)
    (h : 0 ≤ (v i).toInt) :
    select (cmpi .slt v (broadcastInDim S ![] hb (constantI ⟨0, ![]⟩ 32 0#32)))
      (addi v (broadcastInDim S ![] hb (constantI ⟨0, ![]⟩ 32 N))) v i = v i :=
  wrap_scalar (v i) N h

/-- The signed value of the 32-bit word of a natural number below `2 ^ 31` is that number. -/
theorem toInt_ofNat_small (k : Nat) (hk : k < 2147483648) : (BitVec.ofNat 32 k).toInt = (k : Int) := by
  rw [BitVec.toInt_eq_toNat_cond, BitVec.toNat_ofNat]
  have : k % 2 ^ 32 = k := Nat.mod_eq_of_lt (by omega)
  rw [this, if_pos (by omega)]

/-- Two vectors of length `E` made columns and joined along the second axis: entry `(j, 0)` is
    the first vector's entry `j`. -/
theorem pairs_concat0 {α : Type} {E : Nat} (a b : (⟨1, ![E]⟩ : Shape).Idx → α)
    (hb : (⟨1, ![E]⟩ : Shape).BroadcastsInDim ⟨2, ![E, 1]⟩ ![0])
    (hc : Shape.Concatenates [(⟨2, ![E, 1]⟩ : Shape), ⟨2, ![E, 1]⟩] ⟨2, ![E, 2]⟩ 1) (j : Fin E) :
    concatenate ⟨2, ![E, 2]⟩ 1 [⟨⟨2, ![E, 1]⟩, broadcastInDim ⟨2, ![E, 1]⟩ ![0] hb a⟩,
      ⟨⟨2, ![E, 1]⟩, broadcastInDim ⟨2, ![E, 1]⟩ ![0] hb b⟩] hc (ix2 j (0 : Fin 2)) = a (ix1 j) := by
  rw [concatenate_pair_apply_left 1 _ _ hc (ix2 j (0 : Fin 2)) rfl (ix2 j (0 : Fin 1))
    (fun c => match c with | ⟨0, _⟩ => rfl | ⟨1, _⟩ => rfl)]
  exact broadcastInDim_apply _ hb a _ (ix1 j) (fun c => match c with
    | ⟨0, _⟩ => by
      show j.val = if E = 1 then 0 else j.val
      split
      · have := j.isLt; omega
      · rfl)

/-- Two vectors of length `E` made columns and joined along the second axis: entry `(j, 1)` is
    the second vector's entry `j`. -/
theorem pairs_concat1 {α : Type} {E : Nat} (a b : (⟨1, ![E]⟩ : Shape).Idx → α)
    (hb : (⟨1, ![E]⟩ : Shape).BroadcastsInDim ⟨2, ![E, 1]⟩ ![0])
    (hc : Shape.Concatenates [(⟨2, ![E, 1]⟩ : Shape), ⟨2, ![E, 1]⟩] ⟨2, ![E, 2]⟩ 1) (j : Fin E) :
    concatenate ⟨2, ![E, 2]⟩ 1 [⟨⟨2, ![E, 1]⟩, broadcastInDim ⟨2, ![E, 1]⟩ ![0] hb a⟩,
      ⟨⟨2, ![E, 1]⟩, broadcastInDim ⟨2, ![E, 1]⟩ ![0] hb b⟩] hc (ix2 j (1 : Fin 2)) = b (ix1 j) := by
  rw [concatenate_pair_apply_right 1 _ _ hc (ix2 j (1 : Fin 2)) rfl rfl (ix2 j (0 : Fin 1))
    (fun c => match c with | ⟨0, _⟩ => fun _ => rfl | ⟨1, _⟩ => fun h => absurd rfl h) rfl]
  exact broadcastInDim_apply _ hb b _ (ix1 j) (fun c => match c with
    | ⟨0, _⟩ => by
      show j.val = if E = 1 then 0 else j.val
      split
      · have := j.isLt; omega
      · rfl)

/-- The bf16 word `0x0000` is the extended real zero. -/
theorem ofBits_zero_bf16 : Ideal.ofBits .bf16 0x0000#16 = 0 := by simp [Ideal.ofBits, Ideal.ieee]
/-- The bf16 word `0x3F80` is the extended real one. -/
theorem ofBits_one_bf16 : Ideal.ofBits .bf16 0x3F80#16 = 1 := by simp [Ideal.ofBits, Ideal.ieee, -EReal.coe_mul]; norm_num
/-- The f32 word `0x3F800000` is the extended real one. -/
theorem ofBits_one_f32 : Ideal.ofBits .f32 0x3F800000#32 = 1 := by simp [Ideal.ofBits, Ideal.ieee, -EReal.coe_mul]; norm_num

end Generic

/-! ## The two index arrays, read at an entry -/

section KernelIdx

open ValueIdx Cert.KernelIdeal Cert.KernelIdeal.Gen

variable {F : FTy → Type} [FloatOps F]

/-- The row numbers: entry `j` is the word of `j`. -/
theorem kv0_apply (j : Fin 10000) : kv0 (F := F) (ix1 j) = BitVec.ofNat 32 j.val := rfl
/-- The row numbers are not negative: the signed value of entry `j` is `j`. -/
theorem kv0_toInt (j : Fin 10000) : (kv0 (F := F) (ix1 j)).toInt = (j.val : Int) := by
  rw [kv0_apply]; exact toInt_ofNat_small _ (by have := j.isLt; omega)
/-- The diagonal's row coordinates: the wrap keeps the row number. -/
theorem kv10_apply (j : Fin 10000) : kv10 (F := F) (ix1 j) = kv0 (F := F) (ix1 j) :=
  wrap_apply (kv0 (F := F)) bcast_S_S10000 10112#32 (ix1 j) (by rw [kv0_toInt]; exact Int.natCast_nonneg _)
/-- The diagonal's column coordinates: the wrap keeps the row number. -/
theorem kv15_apply (j : Fin 10000) : kv15 (F := F) (ix1 j) = kv0 (F := F) (ix1 j) :=
  wrap_apply (kv0 (F := F)) bcast_S_S10000 10112#32 (ix1 j) (by rw [kv0_toInt]; exact Int.natCast_nonneg _)
/-- Row `j` of the diagonal's index array starts with `j`. -/
theorem kv18_toInt0 (j : Fin 10000) : (kv18 (F := F) (ix2 j (0 : Fin 2))).toInt = (j.val : Int) := by
  have h : kv18 (F := F) (ix2 j (0 : Fin 2)) = kv10 (F := F) (ix1 j) :=
    pairs_concat0 (kv10 (F := F)) (kv15 (F := F)) bcast_S10000_S10000x1_0 concatenates_S10000x1_S10000x1_S10000x2_d1 j
  rw [h, kv10_apply, kv0_toInt]
/-- Row `j` of the diagonal's index array ends with `j`. -/
theorem kv18_toInt1 (j : Fin 10000) : (kv18 (F := F) (ix2 j (1 : Fin 2))).toInt = (j.val : Int) := by
  have h : kv18 (F := F) (ix2 j (1 : Fin 2)) = kv15 (F := F) (ix1 j) :=
    pairs_concat1 (kv10 (F := F)) (kv15 (F := F)) bcast_S10000_S10000x1_0 concatenates_S10000x1_S10000x1_S10000x2_d1 j
  rw [h, kv15_apply, kv0_toInt]

/-- The sources as a vector: entry `e` is the argument's entry `(0, e)`. -/
theorem kv2_apply (x2 : (⟨S2x320000, .i32⟩ : BufTy).Contents (Elt F)) (e : Fin 320000) :
    kv2 (F := F) x2 (ix1 e) = x2 (ix2 (0 : Fin 2) e) := by
  have h1 : kv2 (F := F) x2 (ix1 e) = kv1 (F := F) x2 (ix2 (0 : Fin 1) e) := by
    unfold kv2
    generalize kv1 (F := F) x2 = y
    exact shapeCast_apply y shapeCasts_S1x320000_S320000 (ix1 e) (ix2 (0 : Fin 1) e)
      (by rewrite [Shape.rowMajor_val_two, Shape.rowMajor_val_one]; show 0 * 320000 + e.val = e.val; omega)
  rw [h1]; unfold kv1
  exact extractStridedSlice_apply ![0, 0] x2 slices_S2x320000_S1x320000_0_0 (ix2 (0 : Fin 1) e) (ix2 (0 : Fin 2) e)
    (fun a => match a with
      | ⟨0, _⟩ => by show (0 : Nat) = 0 + 0; rfl
      | ⟨1, _⟩ => by show e.val = 0 + e.val; omega)
/-- The destinations as a vector: entry `e` is the argument's entry `(1, e)`. -/
theorem kv4_apply (x2 : (⟨S2x320000, .i32⟩ : BufTy).Contents (Elt F)) (e : Fin 320000) :
    kv4 (F := F) x2 (ix1 e) = x2 (ix2 (1 : Fin 2) e) := by
  have h1 : kv4 (F := F) x2 (ix1 e) = kv3 (F := F) x2 (ix2 (0 : Fin 1) e) := by
    unfold kv4
    generalize kv3 (F := F) x2 = y
    exact shapeCast_apply y shapeCasts_S1x320000_S320000 (ix1 e) (ix2 (0 : Fin 1) e)
      (by rewrite [Shape.rowMajor_val_two, Shape.rowMajor_val_one]; show 0 * 320000 + e.val = e.val; omega)
  rw [h1]; unfold kv3
  exact extractStridedSlice_apply ![1, 0] x2 slices_S2x320000_S1x320000_1_0 (ix2 (0 : Fin 1) e) (ix2 (1 : Fin 2) e)
    (fun a => match a with
      | ⟨0, _⟩ => by show (1 : Nat) = 1 + 0; rfl
      | ⟨1, _⟩ => by show e.val = 0 + e.val; omega)

/-- Row `e` of the edges' index array starts with the source of `e`, when that is not negative. -/
theorem kv33_apply0 (x2 : (⟨S2x320000, .i32⟩ : BufTy).Contents (Elt F)) (e : Fin 320000)
    (h : 0 ≤ (x2 (ix2 (0 : Fin 2) e)).toInt) :
    kv33 (F := F) x2 (ix2 e (0 : Fin 2)) = x2 (ix2 (0 : Fin 2) e) := by
  have h1 : kv33 (F := F) x2 (ix2 e (0 : Fin 2)) = kv25 (F := F) x2 (ix1 e) :=
    pairs_concat0 (kv25 (F := F) x2) (kv30 (F := F) x2) bcast_S320000_S320000x1_0 concatenates_S320000x1_S320000x1_S320000x2_d1 e
  have h2 : kv25 (F := F) x2 (ix1 e) = kv2 (F := F) x2 (ix1 e) :=
    wrap_apply (kv2 (F := F) x2) bcast_S_S320000 10112#32 (ix1 e) (by rw [kv2_apply]; exact h)
  rw [h1, h2, kv2_apply]
/-- Row `e` of the edges' index array ends with the destination of `e`, when that is not negative. -/
theorem kv33_apply1 (x2 : (⟨S2x320000, .i32⟩ : BufTy).Contents (Elt F)) (e : Fin 320000)
    (h : 0 ≤ (x2 (ix2 (1 : Fin 2) e)).toInt) :
    kv33 (F := F) x2 (ix2 e (1 : Fin 2)) = x2 (ix2 (1 : Fin 2) e) := by
  have h1 : kv33 (F := F) x2 (ix2 e (1 : Fin 2)) = kv30 (F := F) x2 (ix1 e) :=
    pairs_concat1 (kv25 (F := F) x2) (kv30 (F := F) x2) bcast_S320000_S320000x1_0 concatenates_S320000x1_S320000x1_S320000x2_d1 e
  have h2 : kv30 (F := F) x2 (ix1 e) = kv4 (F := F) x2 (ix1 e) :=
    wrap_apply (kv4 (F := F) x2) bcast_S_S320000 10112#32 (ix1 e) (by rw [kv4_apply]; exact h)
  rw [h1, h2, kv4_apply]

end KernelIdx

section ReferenceIdx

open ValueIdx Cert.ReferenceIdeal Cert.ReferenceIdeal.Gen Cert.ReferenceIdeal.Read

variable {F : FTy → Type} [FloatOps F]

/-- The reference's row numbers are not negative: the signed value of entry `j` is `j`. -/
theorem rv0_toInt (j : Fin 10000) : (val_main_v0 (F := F) (ix1 j)).toInt = (j.val : Int) := by
  have h : val_main_v0 (F := F) (ix1 j) = BitVec.ofNat 32 j.val := rfl
  rw [h]; exact toInt_ofNat_small _ (by have := j.isLt; omega)
/-- The reference's diagonal row coordinates: the wrap keeps the row number. -/
theorem rv6_apply (j : Fin 10000) : val_main_v6 (F := F) (ix1 j) = val_main_v0 (F := F) (ix1 j) :=
  wrap_apply (val_main_v0 (F := F)) bcast_S_S10000 10000#32 (ix1 j) (by rw [rv0_toInt]; exact Int.natCast_nonneg _)
/-- The reference's diagonal column coordinates: the wrap keeps the row number. -/
theorem rv11_apply (j : Fin 10000) : val_main_v11 (F := F) (ix1 j) = val_main_v0 (F := F) (ix1 j) :=
  wrap_apply (val_main_v0 (F := F)) bcast_S_S10000 10000#32 (ix1 j) (by rw [rv0_toInt]; exact Int.natCast_nonneg _)
/-- Row `j` of the reference's diagonal index array starts with `j`. -/
theorem rv14_toInt0 (j : Fin 10000) : (val_main_v14 (F := F) (ix2 j (0 : Fin 2))).toInt = (j.val : Int) := by
  have h : val_main_v14 (F := F) (ix2 j (0 : Fin 2)) = val_main_v6 (F := F) (ix1 j) :=
    pairs_concat0 (val_main_v6 (F := F)) (val_main_v11 (F := F)) bcast_S10000_S10000x1_0 concatenates_S10000x1_S10000x1_S10000x2_d1 j
  rw [h, rv6_apply, rv0_toInt]
/-- Row `j` of the reference's diagonal index array ends with `j`. -/
theorem rv14_toInt1 (j : Fin 10000) : (val_main_v14 (F := F) (ix2 j (1 : Fin 2))).toInt = (j.val : Int) := by
  have h : val_main_v14 (F := F) (ix2 j (1 : Fin 2)) = val_main_v11 (F := F) (ix1 j) :=
    pairs_concat1 (val_main_v6 (F := F)) (val_main_v11 (F := F)) bcast_S10000_S10000x1_0 concatenates_S10000x1_S10000x1_S10000x2_d1 j
  rw [h, rv11_apply, rv0_toInt]

/-- The reference's sources as a vector: entry `e` is the argument's entry `(0, e)`. -/
theorem rv18_apply (x2 : (⟨S2x320000, .i32⟩ : BufTy).Contents (Elt F)) (e : Fin 320000) :
    val_main_v18 (F := F) x2 (ix1 e) = x2 (ix2 (0 : Fin 2) e) := kv2_apply (F := F) x2 e
/-- The reference's destinations as a vector: entry `e` is the argument's entry `(1, e)`. -/
theorem rv20_apply (x2 : (⟨S2x320000, .i32⟩ : BufTy).Contents (Elt F)) (e : Fin 320000) :
    val_main_v20 (F := F) x2 (ix1 e) = x2 (ix2 (1 : Fin 2) e) := kv4_apply (F := F) x2 e

/-- Row `e` of the reference's edge index array starts with the source of `e`, when that is not negative. -/
theorem rv33_apply0 (x2 : (⟨S2x320000, .i32⟩ : BufTy).Contents (Elt F)) (e : Fin 320000)
    (h : 0 ≤ (x2 (ix2 (0 : Fin 2) e)).toInt) :
    val_main_v33 (F := F) x2 (ix2 e (0 : Fin 2)) = x2 (ix2 (0 : Fin 2) e) := by
  have h1 : val_main_v33 (F := F) x2 (ix2 e (0 : Fin 2)) = val_main_v25 (F := F) x2 (ix1 e) :=
    pairs_concat0 (val_main_v25 (F := F) x2) (val_main_v30 (F := F) x2) bcast_S320000_S320000x1_0 concatenates_S320000x1_S320000x1_S320000x2_d1 e
  have h2 : val_main_v25 (F := F) x2 (ix1 e) = val_main_v18 (F := F) x2 (ix1 e) :=
    wrap_apply (val_main_v18 (F := F) x2) bcast_S_S320000 10000#32 (ix1 e) (by rw [rv18_apply]; exact h)
  rw [h1, h2, rv18_apply]
/-- Row `e` of the reference's edge index array ends with the destination of `e`, when that is not negative. -/
theorem rv33_apply1 (x2 : (⟨S2x320000, .i32⟩ : BufTy).Contents (Elt F)) (e : Fin 320000)
    (h : 0 ≤ (x2 (ix2 (1 : Fin 2) e)).toInt) :
    val_main_v33 (F := F) x2 (ix2 e (1 : Fin 2)) = x2 (ix2 (1 : Fin 2) e) := by
  have h1 : val_main_v33 (F := F) x2 (ix2 e (1 : Fin 2)) = val_main_v30 (F := F) x2 (ix1 e) :=
    pairs_concat1 (val_main_v25 (F := F) x2) (val_main_v30 (F := F) x2) bcast_S320000_S320000x1_0 concatenates_S320000x1_S320000x1_S320000x2_d1 e
  have h2 : val_main_v30 (F := F) x2 (ix1 e) = val_main_v20 (F := F) x2 (ix1 e) :=
    wrap_apply (val_main_v20 (F := F) x2) bcast_S_S320000 10000#32 (ix1 e) (by rw [rv20_apply]; exact h)
  rw [h1, h2, rv20_apply]

end ReferenceIdx

/-! ## The constants: zeros and ones at the extended reals -/

section Consts

open ValueIdx

/-- The f32 word `0x00000000` is the extended real zero. -/
theorem ofBits_zero_f32' : Ideal.ofBits .f32 0x00000000#32 = 0 := by simp [Ideal.ofBits, Ideal.ieee]

/-- The kernel's padded matrix of zeros is zero everywhere. -/
theorem kv5_apply (p : Cert.KernelIdeal.S10112x10112.Idx) : kv5 (F := Ideal) p = (0 : EReal) := ofBits_zero_bf16
/-- The kernel's diagonal updates are ones. -/
theorem kv19_apply (j : Cert.KernelIdeal.S10000.Idx) : kv19 (F := Ideal) j = (1 : EReal) := ofBits_one_bf16
/-- The kernel's edge updates are ones. -/
theorem kv34_apply (j : Cert.KernelIdeal.S320000.Idx) : kv34 (F := Ideal) j = (1 : EReal) := ofBits_one_bf16
/-- The reference's matrix of zeros is zero everywhere. -/
theorem rv1_apply (q : Cert.ReferenceIdeal.S10000x10000.Idx) : Cert.ReferenceIdeal.Read.val_main_v1 (F := Ideal) q = (0 : EReal) :=
  ofBits_zero_f32'
/-- The reference's diagonal updates are ones. -/
theorem rv15_apply (j : Cert.ReferenceIdeal.S10000.Idx) : Cert.ReferenceIdeal.Read.val_main_v15 (F := Ideal) j = (1 : EReal) :=
  ofBits_one_f32
/-- The reference's edge updates are ones. -/
theorem rv34_apply (j : Cert.ReferenceIdeal.S320000.Idx) : Cert.ReferenceIdeal.Read.val_main_v34 (F := Ideal) j = (1 : EReal) :=
  ofBits_one_f32
/-- The reference's diagonal updates, as the constant function one. -/
theorem rv15_eq : Cert.ReferenceIdeal.Read.val_main_v15 (F := Ideal) = fun _ => (1 : EReal) := funext rv15_apply

end Consts

/-! ## Where the updates land -/

section Hits

open ValueIdx

variable {F : FTy → Type} [FloatOps F]

/-- The reference's diagonal scatter: update `j` lands at `(j, j)`. -/
theorem rdiag_hit (j : Cert.ReferenceIdeal.S10000.Idx) :
    Cert.ReferenceIdeal.scatter_S10000x10000_S10000x2_S10000_n_01_01_1.resultIdx? j (Cert.ReferenceIdeal.Read.val_main_v14 (F := F))
      = some (ix2 (j 0) (j 0)) :=
  ScatterSet.resultIdx?_pairs Cert.ReferenceIdeal.scatter_S10000x10000_S10000x2_S10000_n_01_01_1.wf _ j (j 0) (j 0)
    (rv14_toInt0 (j 0)) (rv14_toInt1 (j 0))

/-- The kernel's diagonal scatter: update `j` lands at `(j, j)`, inside the corner. -/
theorem kdiag_hit (h : 10000 ≤ 10112) (j : Cert.KernelIdeal.S10000.Idx) :
    Cert.KernelIdeal.scatter_S10112x10112_S10000x2_S10000_n_01_01_1.resultIdx? j (kv18 (F := F))
      = some (ix2 (Fin.castLE h (j 0)) (Fin.castLE h (j 0))) :=
  ScatterSet.resultIdx?_pairs Cert.KernelIdeal.scatter_S10112x10112_S10000x2_S10000_n_01_01_1.wf _ j
    (Fin.castLE h (j 0)) (Fin.castLE h (j 0)) (kv18_toInt0 (j 0)) (kv18_toInt1 (j 0))

end Hits

/-! ## The reference's matrix: entries zero or one, ones on the diagonal -/

section RefFacts

open ValueIdx Cert.ReferenceIdeal Cert.ReferenceIdeal.Gen Cert.ReferenceIdeal.Read

/-- (S3) Every entry of the reference's adjacency matrix is zero or one: the zeros are, and every
    update writes a one. -/
theorem ref_zero_one (x2 : IVec S2x320000 32) (q : S10000x10000.Idx) :
    val_main_v35 (F := Ideal) x2 q = (0 : EReal) ∨ val_main_v35 (F := Ideal) x2 q = (1 : EReal) := by
  revert q
  unfold val_main_v35
  refine ScatterSet.scatter_inv _ _ _ _ _ (fun r : S10000x10000.Idx → EReal => ∀ q, r q = 0 ∨ r q = 1) ?_ ?_
  · unfold val_main_v16
    refine ScatterSet.scatter_inv _ _ _ _ _ (fun r : S10000x10000.Idx → EReal => ∀ q, r q = 0 ∨ r q = 1) ?_ ?_
    · intro q; exact Or.inl (rv1_apply q)
    · intro r j i hr _ q
      show (if q = i then val_main_v15 (F := Ideal) j else r q) = 0 ∨ (if q = i then val_main_v15 (F := Ideal) j else r q) = 1
      by_cases hq : q = i
      · rw [if_pos hq]; exact Or.inr (rv15_apply j)
      · rw [if_neg hq]; exact hr q
  · intro r j i hr _ q
    show (if q = i then val_main_v34 (F := Ideal) j else r q) = 0 ∨ (if q = i then val_main_v34 (F := Ideal) j else r q) = 1
    by_cases hq : q = i
    · rw [if_pos hq]; exact Or.inr (rv34_apply j)
    · rw [if_neg hq]; exact hr q

/-- (S3), by coordinates. -/
theorem ref_zero_one' (x2 : IVec S2x320000 32) (i j : Fin 10000) :
    val_main_v35 (F := Ideal) x2 (ix2 i j) = (0 : EReal) ∨ val_main_v35 (F := Ideal) x2 (ix2 i j) = (1 : EReal) :=
  ref_zero_one x2 (ix2 i j)

/-- After the first scatter the reference's diagonal entries are one. -/
theorem rv16_diag (i : Fin 10000) : val_main_v16 (F := Ideal) (ix2 i i) = (1 : EReal) := by
  unfold val_main_v16
  rw [rv15_eq]
  exact ScatterSet.scatter_const_hit _ _ _ (1 : EReal) (ix1 i) _ (rdiag_hit (F := Ideal) (ix1 i))

/-- (S4) The reference's adjacency matrix has ones on the diagonal: the first scatter writes
    them, and the second only ever writes ones. -/
theorem ref_diag (x2 : IVec S2x320000 32) (i : Fin 10000) :
    val_main_v35 (F := Ideal) x2 (ix2 i i) = (1 : EReal) := by
  unfold val_main_v35
  refine ScatterSet.scatter_inv _ _ _ _ _ (fun r : S10000x10000.Idx → EReal => r (ix2 i i) = 1) (rv16_diag i) ?_
  intro r j i0 hr _
  show (if ix2 i i = i0 then val_main_v34 (F := Ideal) j else r (ix2 i i)) = 1
  by_cases hq : ix2 i i = i0
  · rw [if_pos hq]; exact rv34_apply j
  · rw [if_neg hq]; exact hr

end RefFacts

/-! ## The bridge: the padded matrix against the reference's -/

section Bridge

open ValueIdx

/-- The relation kept along both scatters: the padded array agrees with the small one on the
    `N × N` corner, and is zero outside it. -/
def Rel {N M : Nat} (h : N ≤ M) (rk : (⟨2, ![M, M]⟩ : Shape).Idx → EReal) (rr : (⟨2, ![N, N]⟩ : Shape).Idx → EReal) : Prop :=
  (∀ i j : Fin N, rk (ix2 (Fin.castLE h i) (Fin.castLE h j)) = rr (ix2 i j)) ∧
  (∀ p : (⟨2, ![M, M]⟩ : Shape).Idx, N ≤ (p 0).val ∨ N ≤ (p 1).val → rk p = 0)

/-- Writing the same value at `(a, b)` of the corner on both sides keeps the relation: the corner's
    embedding is injective, and an index outside the corner is never `(a, b)`. -/
theorem Rel.step {N M : Nat} (h : N ≤ M) (c : EReal) (rk : (⟨2, ![M, M]⟩ : Shape).Idx → EReal)
    (rr : (⟨2, ![N, N]⟩ : Shape).Idx → EReal) (a b : Fin N) (hR : Rel h rk rr) :
    Rel h (fun p => if p = ix2 (Fin.castLE h a) (Fin.castLE h b) then c else rk p)
      (fun q => if q = ix2 a b then c else rr q) := by
  refine ⟨fun i j => ?_, fun p hp => ?_⟩
  · have hiff : (ix2 (Fin.castLE h i) (Fin.castLE h j) = ix2 (Fin.castLE h a) (Fin.castLE h b)) ↔ (ix2 i j = ix2 a b) := by
      constructor
      · intro e
        have e0 : Fin.castLE h i = Fin.castLE h a := congrFun e (0 : Fin 2)
        have e1 : Fin.castLE h j = Fin.castLE h b := congrFun e (1 : Fin 2)
        have hv0 : (Fin.castLE h i).val = (Fin.castLE h a).val := congrArg Fin.val e0
        have hv1 : (Fin.castLE h j).val = (Fin.castLE h b).val := congrArg Fin.val e1
        have hi : i = a := Fin.ext hv0
        have hj : j = b := Fin.ext hv1
        rw [hi, hj]
      · intro e
        have e0 : i = a := congrFun e (0 : Fin 2)
        have e1 : j = b := congrFun e (1 : Fin 2)
        rw [e0, e1]
    show (if ix2 (Fin.castLE h i) (Fin.castLE h j) = ix2 (Fin.castLE h a) (Fin.castLE h b) then c
        else rk (ix2 (Fin.castLE h i) (Fin.castLE h j))) = (if ix2 i j = ix2 a b then c else rr (ix2 i j))
    by_cases hq : ix2 i j = ix2 a b
    · rw [if_pos hq, if_pos (hiff.2 hq)]
    · rw [if_neg hq, if_neg (fun e => hq (hiff.1 e))]; exact hR.1 i j
  · show (if p = ix2 (Fin.castLE h a) (Fin.castLE h b) then c else rk p) = 0
    have hne : p ≠ ix2 (Fin.castLE h a) (Fin.castLE h b) := by
      intro e
      have e0 : (p 0).val = a.val := congrArg Fin.val (congrFun e (0 : Fin 2))
      have e1 : (p 1).val = b.val := congrArg Fin.val (congrFun e (1 : Fin 2))
      have := a.isLt; have := b.isLt
      omega
    rw [if_neg hne]; exact hR.2 p hp

/-- The coordinate a word of the argument names, as an element of `Fin 10000`, under the range
    hypothesis. -/
def coordOf (x2 : IVec Cert.KernelIdeal.S2x320000 32)
    (hx : ∀ i : Cert.KernelIdeal.S2x320000.Idx, 0 ≤ (x2 i).toInt ∧ (x2 i).toInt < 10000)
    (p : Cert.KernelIdeal.S2x320000.Idx) : Fin 10000 :=
  ⟨(x2 p).toInt.toNat, by have := hx p; omega⟩

/-- The word's signed value is the coordinate it names. -/
theorem coordOf_val (x2 : IVec Cert.KernelIdeal.S2x320000 32)
    (hx : ∀ i : Cert.KernelIdeal.S2x320000.Idx, 0 ≤ (x2 i).toInt ∧ (x2 i).toInt < 10000)
    (p : Cert.KernelIdeal.S2x320000.Idx) : (x2 p).toInt = ((coordOf x2 hx p).val : Int) := by
  show (x2 p).toInt = (((x2 p).toInt.toNat : Nat) : Int)
  have := hx p; omega

/-- The reference's edge scatter: update `e` lands at `(src e, dst e)`. -/
theorem redge_hit (x2 : IVec Cert.KernelIdeal.S2x320000 32)
    (hx : ∀ i : Cert.KernelIdeal.S2x320000.Idx, 0 ≤ (x2 i).toInt ∧ (x2 i).toInt < 10000)
    (j : Cert.ReferenceIdeal.S320000.Idx) :
    Cert.ReferenceIdeal.scatter_S10000x10000_S320000x2_S320000_n_01_01_1.resultIdx? j (Cert.ReferenceIdeal.Read.val_main_v33 (F := Ideal) x2)
      = some (ix2 (coordOf x2 hx (ix2 (0 : Fin 2) (j 0))) (coordOf x2 hx (ix2 (1 : Fin 2) (j 0)))) :=
  ScatterSet.resultIdx?_pairs Cert.ReferenceIdeal.scatter_S10000x10000_S320000x2_S320000_n_01_01_1.wf _ j _ _
    (by rw [rv33_apply0 x2 (j 0) (hx _).1]; exact coordOf_val x2 hx _)
    (by rw [rv33_apply1 x2 (j 0) (hx _).1]; exact coordOf_val x2 hx _)

/-- The kernel's edge scatter: update `e` lands at `(src e, dst e)`, inside the corner. -/
theorem kedge_hit (h : 10000 ≤ 10112) (x2 : IVec Cert.KernelIdeal.S2x320000 32)
    (hx : ∀ i : Cert.KernelIdeal.S2x320000.Idx, 0 ≤ (x2 i).toInt ∧ (x2 i).toInt < 10000)
    (j : Cert.KernelIdeal.S320000.Idx) :
    Cert.KernelIdeal.scatter_S10112x10112_S320000x2_S320000_n_01_01_1.resultIdx? j (kv33 (F := Ideal) x2)
      = some (ix2 (Fin.castLE h (coordOf x2 hx (ix2 (0 : Fin 2) (j 0)))) (Fin.castLE h (coordOf x2 hx (ix2 (1 : Fin 2) (j 0))))) :=
  ScatterSet.resultIdx?_pairs Cert.KernelIdeal.scatter_S10112x10112_S320000x2_S320000_n_01_01_1.wf _ j _ _
    (by rw [kv33_apply0 x2 (j 0) (hx _).1]; exact coordOf_val x2 hx _)
    (by rw [kv33_apply1 x2 (j 0) (hx _).1]; exact coordOf_val x2 hx _)

/-- After the first scatter (the diagonal) the two matrices are related. -/
theorem rel_first (h : 10000 ≤ 10112) :
    Rel h (kv20 (F := Ideal)) (Cert.ReferenceIdeal.Read.val_main_v16 (F := Ideal)) := by
  unfold kv20 Cert.ReferenceIdeal.Read.val_main_v16
  refine ScatterSet.scatter_rel _ _ _ _ _ _ _ _ _ _ (Rel h) ?_ ?_
  · exact ⟨fun i j => (kv5_apply _).trans (rv1_apply _).symm, fun p _ => kv5_apply p⟩
  · intro r r' j hR
    rw [kdiag_hit h j, rdiag_hit j]
    show Rel h (fun p : Cert.KernelIdeal.S10112x10112.Idx => if p = ix2 (Fin.castLE h (j 0)) (Fin.castLE h (j 0)) then kv19 (F := Ideal) j else r p)
      (fun q : Cert.ReferenceIdeal.S10000x10000.Idx => if q = ix2 (n0 := 10000) (n1 := 10000) (j 0) (j 0) then Cert.ReferenceIdeal.Read.val_main_v15 (F := Ideal) j else r' q)
    rw [kv19_apply, rv15_apply]
    exact Rel.step h 1 r r' (j 0) (j 0) hR

/-- After the second scatter (the edges) the two adjacency matrices are related. -/
theorem rel_adj (h : 10000 ≤ 10112) (x2 : IVec Cert.KernelIdeal.S2x320000 32)
    (hx : ∀ i : Cert.KernelIdeal.S2x320000.Idx, 0 ≤ (x2 i).toInt ∧ (x2 i).toInt < 10000) :
    Rel h (adjK (F := Ideal) x2) (Cert.ReferenceIdeal.Read.val_main_v35 (F := Ideal) x2) := by
  unfold adjK kv35 Cert.ReferenceIdeal.Read.val_main_v35
  refine ScatterSet.scatter_rel _ _ _ _ _ _ _ _ _ _ (Rel h) (rel_first h) ?_
  intro r r' j hR
  rw [kedge_hit h x2 hx j, redge_hit x2 hx j]
  show Rel h (fun p : Cert.KernelIdeal.S10112x10112.Idx => if p = ix2 (Fin.castLE h (coordOf x2 hx (ix2 (0 : Fin 2) (j 0)))) (Fin.castLE h (coordOf x2 hx (ix2 (1 : Fin 2) (j 0))))
      then kv34 (F := Ideal) j else r p)
    (fun q : Cert.ReferenceIdeal.S10000x10000.Idx => if q = ix2 (coordOf x2 hx (ix2 (0 : Fin 2) (j 0))) (coordOf x2 hx (ix2 (1 : Fin 2) (j 0)))
      then Cert.ReferenceIdeal.Read.val_main_v34 (F := Ideal) j else r' q)
  rw [kv34_apply, rv34_apply]
  exact Rel.step h 1 r r' _ _ hR

/-- (S1) On the `10000 × 10000` corner the kernel's adjacency matrix is the reference's. -/
theorem adj_corner (h : 10000 ≤ 10112) (x2 : IVec Cert.KernelIdeal.S2x320000 32)
    (hx : ∀ i : Cert.KernelIdeal.S2x320000.Idx, 0 ≤ (x2 i).toInt ∧ (x2 i).toInt < 10000) (i j : Fin 10000) :
    adjK (F := Ideal) x2 (ix2 (Fin.castLE h i) (Fin.castLE h j))
      = Cert.ReferenceIdeal.Read.val_main_v35 (F := Ideal) x2 (ix2 i j) :=
  (rel_adj h x2 hx).1 i j

/-- (S2) Outside the corner the kernel's adjacency matrix is zero. -/
theorem adj_pad (x2 : IVec Cert.KernelIdeal.S2x320000 32)
    (hx : ∀ i : Cert.KernelIdeal.S2x320000.Idx, 0 ≤ (x2 i).toInt ∧ (x2 i).toInt < 10000) (i j : Fin 10112)
    (hij : 10000 ≤ i.val ∨ 10000 ≤ j.val) :
    adjK (F := Ideal) x2 (ix2 i j) = (0 : EReal) :=
  (rel_adj (by decide) x2 hx).2 (ix2 i j) hij

end Bridge

end Cert.Adjacency
-- ==== Proof.KernelAdjacency.lean ====
/-
  The adjacency array the first grid region finds is the host operations' term of the edge list: two scatters of the
  constant one into a zero array, first at the diagonal positions, then at the edges.
-/
import proofs.«133764_j58703613001790_1_alg».proof.Proof.Gen.KernelIdeal.Frame
import proofs.«133764_j58703613001790_1_alg».proof.Proof.Adjacency
import Idealize.ShloMosaic.Lib.StableHlo.Run

set_option maxRecDepth 16384

noncomputable section

namespace Cert.KernelIdeal.KernelAdjacency

open Idealize.ShloMosaic Idealize.ShloMosaic.TcCoe
open Idealize.SL.Sem Idealize.ShloMosaic.StableHlo
open Cert.KernelIdeal Cert.KernelIdeal.Gen

variable {F : FTy → Type} [FloatOps F]
variable (m : (ℓ : Loc nD τ sig) → Buf (Elt F) ℓ) (ρ : Dev nD → PrngReg)

set_option maxHeartbeats 2000000 in
/-- At the first region's entry the adjacency buffer holds the host operations' term of the edge list argument. -/
theorem adjacency_eq (c : Dev nD) : V1 m ρ c main_v35 = Cert.Adjacency.adjK (F := F) (m ((c : Thread nD τ).loc main_arg2)) := by
  show StableHlo.after hostOps0 (W0 m ρ c) (Proc.devRef .tc main_v35) = _
  after_results_simp <;> rfl

end Cert.KernelIdeal.KernelAdjacency

end
-- ==== Proof.HostReads.lean ====
/-
  The kernel program's host operations around the grid regions, read at an index: the features padded below with 112
  zero rows, a column broadcast along each row, and the leading 10000 rows of an array of 10112.
-/
import proofs.«133764_j58703613001790_1_alg».proof.Proof.Gen.KernelIdeal
import Idealize.ShloMosaic.Lib.KernelVsHost
import Idealize.ShloMosaic.Lib.Pipeline.Value
import Idealize.ShloMosaic.Lib.ValueIdx

noncomputable section

namespace Cert.KernelIdeal.HostReads

open Idealize.ShloMosaic Idealize.ShloMosaic.ValueIdx
open Cert.KernelIdeal Cert.KernelIdeal.Gen

theorem le_pad : 10000 ≤ 10112 := by decide

variable {α : Type}

/-- A row of the padded features below 10000 is the row of the features. -/
theorem pad_inside (x : S10000x256.Idx → α) (v : S_.Idx → α) (j : Fin 10000) (c : Fin 256) :
    pad S10112x256 ![0, 0] ![112, 0] ![0, 0] x v pads_S10000x256_S10112x256_01120_000 h_S_ (ix2 (Fin.castLE le_pad j) c) = x (ix2 j c) :=
  pad_apply_of_inside ![0, 0] ![112, 0] ![0, 0] x v pads_S10000x256_S10112x256_01120_000 h_S_ (ix2 (Fin.castLE le_pad j) c) (ix2 j c)
    (fun a => match a with
      | ⟨0, _⟩ => by show j.val = 0 + j.val * (0 + 1); omega
      | ⟨1, _⟩ => by show c.val = 0 + c.val * (0 + 1); omega)

/-- A row of the padded features from 10000 on is the padding value. -/
theorem pad_outside (x : S10000x256.Idx → α) (v : S_.Idx → α) (j : Fin 10112) (c : Fin 256) (hj : 10000 ≤ j.val) :
    pad S10112x256 ![0, 0] ![112, 0] ![0, 0] x v pads_S10000x256_S10112x256_01120_000 h_S_ (ix2 j c) = v (Shape.Idx.first h_S_) :=
  pad_apply_of_not_inside ![0, 0] ![112, 0] ![0, 0] x v pads_S10000x256_S10112x256_01120_000 h_S_ (ix2 j c) (0 : Fin 2)
    (by show ¬(0 ≤ j.val ∧ (j.val - 0) % (0 + 1) = 0 ∧ (j.val - 0) / (0 + 1) < 10000); omega)

/-- The padding value, the integer zero converted to a float, is the number zero. -/
theorem pad_value_zero (i : S_.Idx) : (sitofp .f32 (constantI S_ 32 0#32 : IVec S_ 32) : FVec Ideal S_ .f32) i = 0 := by
  show (Scalar.sitofp .f32 (0#32 : BitVec 32) : Ideal .f32) = 0
  exact sitofp_zero

/-- A column broadcast along the rows, read at (j, c), is the column at j. -/
theorem broadcast_rows (D : S10112x1.Idx → α) (j : Fin 10112) (c : Fin 256) :
    broadcastInDim S10112x256 ![0, 1] bcast_S10112x1_S10112x256_0_1 D (ix2 j c) = D (ix2 j (0 : Fin 1)) :=
  broadcastInDim_apply ![0, 1] bcast_S10112x1_S10112x256_0_1 D (ix2 j c) (ix2 j (0 : Fin 1)) (fun a => match a with
    | ⟨0, _⟩ => by show j.val = if (10112 : Nat) = 1 then 0 else j.val; rw [if_neg (by decide)]
    | ⟨1, _⟩ => by show 0 = if (1 : Nat) = 1 then 0 else c.val; rw [if_pos rfl])

/-- The leading rows of an array, read at (r, o), are the array at (r, o). -/
theorem leading_rows (Y : S10112x256.Idx → α) (r : Fin 10000) (o : Fin 256) :
    extractStridedSlice S10000x256 ![0, 0] Y slices_S10112x256_S10000x256_0_0 (ix2 r o) = Y (ix2 (Fin.castLE le_pad r) o) :=
  extractStridedSlice_apply ![0, 0] Y slices_S10112x256_S10000x256_0_0 (ix2 r o) (ix2 (Fin.castLE le_pad r) o) (fun a => match a with
    | ⟨0, _⟩ => by show r.val = 0 + r.val; omega
    | ⟨1, _⟩ => by show o.val = 0 + o.val; omega)

end Cert.KernelIdeal.HostReads

end
-- ==== Proof.PayloadAt.lean ====
import proofs.«133764_j58703613001790_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws
import Idealize.ShloMosaic.Lib.IdealHost

/-!
# The two bodies' arithmetic read at an index

At the extended reals: the first body's stored column at row `p` is the inverse square root of the
sum of row `p` of the loaded block (the sum replaced by 1 when it is not positive); the second body's
stored block at (p, o) is the double sum, over a feature column `c` and a contraction index `j`, of
the loaded adjacency row times the loaded features, scaled by the row's loaded scale, times the loaded
weights.
-/

noncomputable section

namespace Cert.KernelIdeal.PayloadAt

open Cert.KernelIdeal Cert.KernelIdeal.Gen Idealize.ShloMosaic Idealize.ShloMosaic.ValueIdx

/-- The inverse square root of a row's sum, with the sum replaced by 1 when it is not positive. -/
def invSqrtDeg (row : Fin 10112 → EReal) : EReal :=
  Ideal.rsqrt (if 0 < ∑ k, row k then ∑ k, row k else 1)

/-- The lane sum of the widened block, reshaped to a column, read at row `p`: the sum of row `p`. -/
theorem rowsum_apply (x0 : Vec Ideal S128x10112 .bf16) (p : Fin 128) (q : Fin 1) :
    shapeCast S128x1 (multiReduction (F := Ideal) .add [1] S128
        (extf .f32 (shapeCast S128x10112 x0 shapeCasts_S128x10112_S128x10112) bitsLt_bf16_f32)
        0x00000000#32 reduces_S128x10112_S128 (.inl rfl) rfl) shapeCasts_S128_S128x1 (ix2 p q)
      = ∑ k : Fin 10112, x0 (ix2 p k) := by
  rw [shapeCast_apply _ shapeCasts_S128_S128x1 (ix2 p q) (ix1 p) (by
    rw [Shape.rowMajor_val_one, Shape.rowMajor_val_two]
    have := q.isLt
    show p.val = p.val * 1 + q.val
    omega)]
  refine (Ideal.multiReduction_add_single _ _ reduces_S128x10112_S128 _ _ (ix1 p)).trans ?_
  rw [shapeCast_self]
  refine Finset.sum_congr rfl fun k _ => ?_
  rw [extf_apply]
  exact congrArg x0 (funext fun a => Fin.ext (by match a with | ⟨0, _⟩ => rfl | ⟨1, _⟩ => rfl))

/-- The comparison-and-select on an extended real `S`: `S` when `0 < S`, else `1`. -/
theorem select_pos_or_one (S : EReal) :
    Scalar.select (Ideal.cmp .ogt S (Ideal.ofBits .f32 0x00000000#32)) S (Ideal.ofBits .f32 0x3F800000#32)
      = if 0 < S then S else 1 := by
  rw [Ideal.ofBits_zero_f32, Ideal.ofBits_one_f32]
  by_cases h : 0 < S
  · have hc : Ideal.cmp .ogt S 0 = 1#1 := by simp [Ideal.cmp, h]
    rw [if_pos h, hc, select_one]
  · have hc : Ideal.cmp .ogt S 0 = 0#1 := by simp [Ideal.cmp, h]
    rw [if_neg h, hc, select_zero]

/-- The degree kernel's stored value at row `p`: the inverse square root of the sum of row `p` of
the loaded block, the sum replaced by 1 when it is not positive. -/
theorem degree_payload_apply (x0 : Vec Ideal S128x10112 .bf16) (p : Fin 128) (q : Fin 1) :
    k0_pay1 (F := Ideal) x0 (ix2 p q) = invSqrtDeg (fun k => x0 (ix2 p k)) := by
  unfold k0_pay1
  show FloatOps.rsqrt (Scalar.select (FloatOps.cmpf .ogt _ (Scalar.ofBits .f32 0x00000000#32)) _ (Scalar.ofBits .f32 0x3F800000#32)) = _
  rw [rowsum_apply x0 p q]
  exact congrArg Ideal.rsqrt (select_pos_or_one _)

/-- Left operand index of the first product, row coordinate: the output row. -/
theorem lhsA_0 (i : S128x256.Idx) (q : dot_S128x10112_S10112x256_S128x256_1_0_0_1_n_n.contr.Idx) :
    (dot_S128x10112_S10112x256_S128x256_1_0_0_1_n_n.lhsIdx i q 0).val = (i 0).val := by
  unfold DotDims.lhsIdx
  rw [dif_neg (show ¬(0 : Fin S128x10112.rank) ∈ dot_S128x10112_S10112x256_S128x256_1_0_0_1_n_n.lhsBatch by decide), dif_pos (show (0 : Fin S128x10112.rank) ∈ dot_S128x10112_S10112x256_S128x256_1_0_0_1_n_n.lhsNonContracting by decide)]
  rfl

/-- Right operand index of the first product, column coordinate: the output column. -/
theorem rhsA_1 (i : S128x256.Idx) (q : dot_S128x10112_S10112x256_S128x256_1_0_0_1_n_n.contr.Idx) :
    (dot_S128x10112_S10112x256_S128x256_1_0_0_1_n_n.rhsIdx i q 1).val = (i 1).val := by
  unfold DotDims.rhsIdx
  rw [dif_neg (show ¬(1 : Fin S10112x256.rank) ∈ dot_S128x10112_S10112x256_S128x256_1_0_0_1_n_n.rhsBatch by decide), dif_pos (show (1 : Fin S10112x256.rank) ∈ dot_S128x10112_S10112x256_S128x256_1_0_0_1_n_n.rhsNonContracting by decide)]
  rfl

/-- Left operand index of the second product, row coordinate: the output row. -/
theorem lhsB_0 (i : S128x256.Idx) (q : dot_S128x256_S256x256_S128x256_1_0_0_1_n_n.contr.Idx) :
    (dot_S128x256_S256x256_S128x256_1_0_0_1_n_n.lhsIdx i q 0).val = (i 0).val := by
  unfold DotDims.lhsIdx
  rw [dif_neg (show ¬(0 : Fin S128x256.rank) ∈ dot_S128x256_S256x256_S128x256_1_0_0_1_n_n.lhsBatch by decide), dif_pos (show (0 : Fin S128x256.rank) ∈ dot_S128x256_S256x256_S128x256_1_0_0_1_n_n.lhsNonContracting by decide)]
  rfl

/-- Right operand index of the second product, column coordinate: the output column. -/
theorem rhsB_1 (i : S128x256.Idx) (q : dot_S128x256_S256x256_S128x256_1_0_0_1_n_n.contr.Idx) :
    (dot_S128x256_S256x256_S128x256_1_0_0_1_n_n.rhsIdx i q 1).val = (i 1).val := by
  unfold DotDims.rhsIdx
  rw [dif_neg (show ¬(1 : Fin S256x256.rank) ∈ dot_S128x256_S256x256_S128x256_1_0_0_1_n_n.rhsBatch by decide), dif_pos (show (1 : Fin S256x256.rank) ∈ dot_S128x256_S256x256_S128x256_1_0_0_1_n_n.rhsNonContracting by decide)]
  rfl

/-- The [128,10112] × [10112,256] matrix product accumulated into zero, read at (p, c): the sum over
the contraction coordinate of the products. -/
theorem matmulA_apply (L : FVec Ideal S128x10112 .f32) (R : FVec Ideal S10112x256 .f32) (p : Fin 128) (c : Fin 256) :
    matmul dot_S128x10112_S10112x256_S128x256_1_0_0_1_n_n none L R (constant S128x256 .f32 0x00000000#32) (ix2 p c)
      = ∑ j : Fin 10112, L (ix2 p j) * R (ix2 j c) := by
  show FloatOps.matmul _ _ _ _ _ _ = _
  rw [Ideal.matmul_constant_zero_apply, ← Equiv.sum_comp (contrEquiv1 dot_S128x10112_S10112x256_S128x256_1_0_0_1_n_n 10112 rfl rfl).symm]
  refine Finset.sum_congr rfl fun k _ => ?_
  have hk := contrEquiv1_symm_val dot_S128x10112_S10112x256_S128x256_1_0_0_1_n_n 10112 rfl rfl k
  have el : dot_S128x10112_S10112x256_S128x256_1_0_0_1_n_n.lhsIdx (ix2 p c) ((contrEquiv1 dot_S128x10112_S10112x256_S128x256_1_0_0_1_n_n 10112 rfl rfl).symm k) = ix2 p k := funext fun a => Fin.ext (by
    match a with
    | ⟨0, _⟩ => exact lhsA_0 _ _
    | ⟨1, _⟩ => exact (dot_S128x10112_S10112x256_S128x256_1_0_0_1_n_n.lhsIdx_val_of_single rfl _ _).trans hk)
  have er : dot_S128x10112_S10112x256_S128x256_1_0_0_1_n_n.rhsIdx (ix2 p c) ((contrEquiv1 dot_S128x10112_S10112x256_S128x256_1_0_0_1_n_n 10112 rfl rfl).symm k) = ix2 k c := funext fun a => Fin.ext (by
    match a with
    | ⟨0, _⟩ => exact (dot_S128x10112_S10112x256_S128x256_1_0_0_1_n_n.rhsIdx_val_of_single rfl _ _).trans hk
    | ⟨1, _⟩ => exact rhsA_1 _ _)
  rw [el, er]

/-- The [128,256] × [256,256] matrix product accumulated into zero, read at (p, o): the sum over
the contraction coordinate of the products. -/
theorem matmulB_apply (L : FVec Ideal S128x256 .f32) (R : FVec Ideal S256x256 .f32) (p : Fin 128) (o : Fin 256) :
    matmul dot_S128x256_S256x256_S128x256_1_0_0_1_n_n none L R (constant S128x256 .f32 0x00000000#32) (ix2 p o)
      = ∑ c : Fin 256, L (ix2 p c) * R (ix2 c o) := by
  show FloatOps.matmul _ _ _ _ _ _ = _
  rw [Ideal.matmul_constant_zero_apply, ← Equiv.sum_comp (contrEquiv1 dot_S128x256_S256x256_S128x256_1_0_0_1_n_n 256 rfl rfl).symm]
  refine Finset.sum_congr rfl fun k _ => ?_
  have hk := contrEquiv1_symm_val dot_S128x256_S256x256_S128x256_1_0_0_1_n_n 256 rfl rfl k
  have el : dot_S128x256_S256x256_S128x256_1_0_0_1_n_n.lhsIdx (ix2 p o) ((contrEquiv1 dot_S128x256_S256x256_S128x256_1_0_0_1_n_n 256 rfl rfl).symm k) = ix2 p k := funext fun a => Fin.ext (by
    match a with
    | ⟨0, _⟩ => exact lhsB_0 _ _
    | ⟨1, _⟩ => exact (dot_S128x256_S256x256_S128x256_1_0_0_1_n_n.lhsIdx_val_of_single rfl _ _).trans hk)
  have er : dot_S128x256_S256x256_S128x256_1_0_0_1_n_n.rhsIdx (ix2 p o) ((contrEquiv1 dot_S128x256_S256x256_S128x256_1_0_0_1_n_n 256 rfl rfl).symm k) = ix2 k o := funext fun a => Fin.ext (by
    match a with
    | ⟨0, _⟩ => exact (dot_S128x256_S256x256_S128x256_1_0_0_1_n_n.rhsIdx_val_of_single rfl _ _).trans hk
    | ⟨1, _⟩ => exact rhsB_1 _ _)
  rw [el, er]

/-- A [128,1] column broadcast to [128,256], read at (p, c): the column's entry in row `p`. -/
theorem column_broadcast_apply (x6 : FVec Ideal S128x1 .f32) (p : Fin 128) (c : Fin 256) :
    broadcastTo S128x256 (shapeCast S128x1 x6 shapeCasts_S128x1_S128x1) broadcasts_S128x1_S128x256 (ix2 p c)
      = x6 (ix2 p (0 : Fin 1)) := by
  rw [shapeCast_self]
  exact broadcastTo_apply x6 broadcasts_S128x1_S128x256 (ix2 p c) (ix2 p (0 : Fin 1)) (fun a => match a with
    | ⟨0, _⟩ => by show p.val = if (128 : Nat) = 1 then 0 else p.val; rw [if_neg (by decide)]
    | ⟨1, _⟩ => by show 0 = if (1 : Nat) = 1 then 0 else c.val; rw [if_pos rfl])

/-- The aggregation kernel's stored value at (p, o): the row `p` of the loaded adjacency block times
the loaded feature block, scaled by the row's loaded scale, times the loaded weight matrix. -/
theorem gcn_payload_apply (x0 : Vec Ideal S128x10112 .bf16) (x3 : Vec Ideal S10112x256 .f32)
    (x6 : Vec Ideal S128x1 .f32) (x10 : Vec Ideal S256x256 .f32) (p : Fin 128) (o : Fin 256) :
    k1_pay1 (F := Ideal) x0 x3 x6 x10 (ix2 p o)
      = ∑ c : Fin 256, ((∑ j : Fin 10112, x0 (ix2 p j) * x3 (ix2 j c)) * x6 (ix2 p (0 : Fin 1))) * x10 (ix2 c o) := by
  unfold k1_pay1
  refine (matmulB_apply _ x10 p o).trans ?_
  refine Finset.sum_congr rfl fun c _ => ?_
  refine congrArg (· * x10 (ix2 c o)) ?_
  rw [mulf_apply, column_broadcast_apply x6 p c, matmulA_apply]
  refine congrArg (· * x6 (ix2 p (0 : Fin 1))) ?_
  refine Finset.sum_congr rfl fun j _ => ?_
  rw [extf_apply, shapeCast_self, shapeCast_self]

end Cert.KernelIdeal.PayloadAt

end
-- ==== Proof.LibPaddedSum.lean ====
import Mathlib.Data.EReal.Inv
import Mathlib.Algebra.BigOperators.Fin
import Mathlib.Tactic.Ring

/-!
# Finite sums whose tail contributes nothing

General facts about sums over `Fin N` in which every index `j ≥ n` contributes zero, the fact
that a finite sum of real numbers (viewed as extended reals) is a real number, and a
distributivity identity for a normalised weighted row sum.
-/

open Finset

namespace PaddedSum

/-- Dropping a zero tail: if `n ≤ N` and `g j = 0` for every index `j` with `n ≤ j`, then the
sum of `g` over `Fin N` equals the sum over `Fin n` of `g` restricted along the inclusion
`Fin n → Fin N`. Holds in every additive commutative monoid. -/
theorem sum_drop_zero_tail {M : Type*} [AddCommMonoid M] {n N : ℕ} (h : n ≤ N) (g : Fin N → M)
    (hg : ∀ j : Fin N, n ≤ j.val → g j = 0) :
    ∑ j : Fin N, g j = ∑ j : Fin n, g (Fin.castLE h j) := by
  symm
  refine Finset.sum_of_injOn (Fin.castLE h) ?_ ?_ ?_ ?_
  · intro a _ b _ hab
    exact Fin.castLE_injective h hab
  · intro a _
    exact Finset.mem_coe.mpr (Finset.mem_univ _)
  · intro j _ hj
    apply hg
    by_contra hlt
    apply hj
    refine ⟨⟨j.val, Nat.lt_of_not_le hlt⟩, Finset.mem_coe.mpr (Finset.mem_univ _), ?_⟩
    exact Fin.ext rfl
  · intro j _
    rfl

/-- A finite sum of real numbers, each viewed as an extended real, is the extended real attached
to the real sum (sum over a finite set). -/
theorem coe_sum_finset {ι : Type*} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- A finite sum of real numbers, each viewed as an extended real, is the extended real attached
to the real sum (sum over a finite type). -/
theorem coe_sum {ι : Type*} [Fintype ι] (f : ι → ℝ) :
    ∑ i, ((f i : ℝ) : EReal) = ((∑ i, f i : ℝ) : EReal) :=
  coe_sum_finset Finset.univ f

/-- If every entry of a finite family of extended reals is `0` or `1` and at least one entry is
`1`, then the sum of the family is a real number `r` with `1 ≤ r`. -/
theorem sum_zero_one_real {n : ℕ} (a : Fin n → EReal) (ha : ∀ j, a j = 0 ∨ a j = 1)
    (i : Fin n) (hi : a i = 1) :
    ∃ r : ℝ, 1 ≤ r ∧ ∑ j, a j = (r : EReal) := by
  classical
  have hf : ∀ j, ∃ t : ℝ, 0 ≤ t ∧ (a j = 1 → t = 1) ∧ a j = (t : EReal) := by
    intro j
    rcases ha j with h0 | h1
    · refine ⟨0, le_refl _, ?_, by rw [h0, EReal.coe_zero]⟩
      intro h1
      rw [h0] at h1
      exact absurd h1 zero_ne_one
    · exact ⟨1, zero_le_one, fun _ => rfl, by rw [h1, EReal.coe_one]⟩
  choose f hf0 hf1 hfa using hf
  refine ⟨∑ j, f j, ?_, ?_⟩
  · have h1 : f i = 1 := hf1 i hi
    rw [← h1]
    exact Finset.single_le_sum (fun j _ => hf0 j) (Finset.mem_univ i)
  · rw [← coe_sum]
    exact Finset.sum_congr rfl (fun j _ => hfa j)

/-- The degree of a padded row: if the padded matrix `Ak` agrees with `Ar` on row `i` at the
first `n` columns and vanishes on that row at every column `j ≥ n`, then the row sum of `Ak`
over `Fin N` equals the row sum of `Ar` over `Fin n`. Holds in every additive commutative
monoid. -/
theorem padded_row_sum {M : Type*} [AddCommMonoid M] {n N : ℕ} (h : n ≤ N)
    (Ar : Fin n → Fin n → M) (Ak : Fin N → Fin N → M) (i : Fin n)
    (hA : ∀ j : Fin n, Ak (Fin.castLE h i) (Fin.castLE h j) = Ar i j)
    (hA0 : ∀ j : Fin N, n ≤ j.val → Ak (Fin.castLE h i) j = 0) :
    ∑ j : Fin N, Ak (Fin.castLE h i) j = ∑ j : Fin n, Ar i j := by
  rw [sum_drop_zero_tail h (fun j => Ak (Fin.castLE h i) j) hA0]
  exact Finset.sum_congr rfl (fun j _ => hA j)

/-- The normalised aggregate. Let `n ≤ N`. Suppose row `i` of the padded matrix `Ak` agrees
with the `0/1`-valued row `i` of `Ar` on the first `n` columns, the padded vector `xp` agrees
with the real-valued vector `x` on the first `n` entries and vanishes on every entry `j ≥ n`,
and the padded scaling `dis` agrees with the real-valued scaling `d` on the first `n` entries.
Then `(∑ j, Ak i j * (xp j * dis j)) * dis i = ∑ j, ((Ar i j * d i) * d j) * x j`.
Nothing is assumed about `Ak` or `dis` on the tail, since `0 * y = 0 = y * 0` for every
extended real `y`. -/
theorem normalised_aggregate {n N : ℕ} (h : n ≤ N)
    (Ar : Fin n → Fin n → EReal) (Ak : Fin N → Fin N → EReal)
    (x : Fin n → EReal) (xp : Fin N → EReal) (d : Fin n → EReal) (dis : Fin N → EReal)
    (i : Fin n)
    (hA : ∀ j : Fin n, Ak (Fin.castLE h i) (Fin.castLE h j) = Ar i j)
    (hAr : ∀ j : Fin n, Ar i j = 0 ∨ Ar i j = 1)
    (hxp : ∀ j : Fin n, xp (Fin.castLE h j) = x j)
    (hx0 : ∀ j : Fin N, n ≤ j.val → xp j = 0)
    (hx : ∀ j : Fin n, ∃ r : ℝ, x j = (r : EReal))
    (hd : ∀ j : Fin n, ∃ q : ℝ, d j = (q : EReal))
    (hdis : ∀ j : Fin n, dis (Fin.castLE h j) = d j) :
    (∑ j : Fin N, Ak (Fin.castLE h i) j * (xp j * dis j)) * dis (Fin.castLE h i)
      = ∑ j : Fin n, ((Ar i j * d i) * d j) * x j := by
  have hAr' : ∀ j : Fin n, ∃ a : ℝ, Ar i j = (a : EReal) := by
    intro j
    rcases hAr j with h0 | h1
    · exact ⟨0, by rw [h0, EReal.coe_zero]⟩
    · exact ⟨1, by rw [h1, EReal.coe_one]⟩
  choose ra hra using hAr'
  choose rx hrx using hx
  choose rd hrd using hd
  have hL : ∑ j : Fin N, Ak (Fin.castLE h i) j * (xp j * dis j)
      = ∑ j : Fin n, ((ra j * (rx j * rd j) : ℝ) : EReal) := by
    rw [sum_drop_zero_tail h (fun j => Ak (Fin.castLE h i) j * (xp j * dis j))
      (fun j hj => by rw [hx0 j hj, zero_mul, mul_zero])]
    refine Finset.sum_congr rfl (fun j _ => ?_)
    show Ak (Fin.castLE h i) (Fin.castLE h j) * (xp (Fin.castLE h j) * dis (Fin.castLE h j)) = _
    rw [hA j, hxp j, hdis j, hra j, hrx j, hrd j, EReal.coe_mul, EReal.coe_mul]
  have hR : ∑ j : Fin n, ((Ar i j * d i) * d j) * x j
      = ∑ j : Fin n, ((((ra j * rd i) * rd j) * rx j : ℝ) : EReal) := by
    refine Finset.sum_congr rfl (fun j _ => ?_)
    rw [EReal.coe_mul, EReal.coe_mul, EReal.coe_mul, ← hra j, ← hrd i, ← hrd j, ← hrx j]
  rw [hL, hR, hdis i, hrd i, coe_sum, coe_sum, ← EReal.coe_mul, Finset.sum_mul]
  congr 1
  refine Finset.sum_congr rfl (fun j _ => ?_)
  ring

end PaddedSum
-- ==== Proof.NormalisedBridge.lean ====
/-
  The law that joins the two programs, for one output row r and one feature column c. Write A for the 10000 × 10000
  adjacency matrix with entries 0 or 1 and ones on the diagonal, and A' for a 10112 × 10112 matrix that agrees with A on
  the leading block and vanishes outside it; X for a finite feature column and X' for X padded with zeros. Every degree
  Σ_k A(j,k) is a real number ≥ 1, so the guarded inverse square root of the padded row sum (the row sum if positive,
  else 1) is the plain inverse square root d(j) of the degree, a positive real. Then
    (Σ_{j<10112} A'(r,j) · (X'(j) · d'(j))) · d'(r) = Σ_{j<10000} ((A(r,j) · d(r)) · d(j)) · X(j):
  the padded tail contributes nothing and the rest is distributivity and commutativity of real numbers.
-/
import proofs.«133764_j58703613001790_1_alg».proof.Proof.LibPaddedSum
import Idealize.ShloMosaic.PureOps.Ideal
import Idealize.ShloMosaic.Lib.ValueIdx

noncomputable section

namespace Cert.NormalisedBridge

open Idealize.ShloMosaic Idealize.ShloMosaic.ValueIdx

/-- The inverse square root of a real number that is at least one is a real number. -/
theorem rsqrt_real_of_one_le (q : ℝ) (hq : 1 ≤ q) : ∃ s : ℝ, Ideal.rsqrt (q : EReal) = (s : EReal) := by
  refine ⟨(Real.sqrt q)⁻¹, ?_⟩
  rw [Ideal.rsqrt_coe, if_neg (by linarith), if_neg (by linarith)]

theorem le_pad : 10000 ≤ 10112 := by decide

/-- The guarded inverse square root of a padded row sum of the padded adjacency matrix. -/
def guardedInvSqrt (AK : (⟨2, ![10112, 10112]⟩ : Shape).Idx → EReal) (j : Fin 10112) : EReal :=
  Ideal.rsqrt (if 0 < ∑ k : Fin 10112, AK (ix2 j k) then ∑ k : Fin 10112, AK (ix2 j k) else 1)

/-- The inverse square root of a degree. -/
def invSqrtDegree (A : (⟨2, ![10000, 10000]⟩ : Shape).Idx → EReal) (i : Fin 10000) : EReal :=
  Ideal.rsqrt (∑ k : Fin 10000, A (ix2 i k))

variable (AK : (⟨2, ![10112, 10112]⟩ : Shape).Idx → EReal) (A : (⟨2, ![10000, 10000]⟩ : Shape).Idx → EReal)
  (S1 : ∀ i j : Fin 10000, AK (ix2 (Fin.castLE le_pad i) (Fin.castLE le_pad j)) = A (ix2 i j))
  (S2 : ∀ i j : Fin 10112, (10000 ≤ i.val ∨ 10000 ≤ j.val) → AK (ix2 i j) = 0)
  (S3 : ∀ i j : Fin 10000, A (ix2 i j) = 0 ∨ A (ix2 i j) = 1)
  (S4 : ∀ i : Fin 10000, A (ix2 i i) = 1)

include S3 S4 in
/-- Every degree is a real number that is at least one. -/
theorem degree_real (j : Fin 10000) : ∃ q : ℝ, 1 ≤ q ∧ ∑ k : Fin 10000, A (ix2 j k) = (q : EReal) :=
  PaddedSum.sum_zero_one_real (fun k => A (ix2 j k)) (S3 j) j (S4 j)

include S3 S4 in
/-- So its inverse square root is a real number. -/
theorem invSqrtDegree_real (j : Fin 10000) : ∃ s : ℝ, invSqrtDegree A j = (s : EReal) := by
  obtain ⟨q, hq, e⟩ := degree_real A S3 S4 j
  unfold invSqrtDegree
  rw [e]
  exact rsqrt_real_of_one_le q hq

include S1 S2 S3 S4 in
/-- On a leading row the guarded inverse square root of the padded row sum is the inverse square root of the degree. -/
theorem guarded_eq (j : Fin 10000) : guardedInvSqrt AK (Fin.castLE le_pad j) = invSqrtDegree A j := by
  have hsum : ∑ k : Fin 10112, AK (ix2 (Fin.castLE le_pad j) k) = ∑ k : Fin 10000, A (ix2 j k) :=
    PaddedSum.padded_row_sum le_pad (fun i k => A (ix2 i k)) (fun i k => AK (ix2 i k)) j (S1 j)
      (fun k hk => S2 _ k (Or.inr hk))
  obtain ⟨q, hq, e⟩ := degree_real A S3 S4 j
  unfold guardedInvSqrt invSqrtDegree
  rw [hsum, e, if_pos (by exact_mod_cast (by linarith : (0 : ℝ) < q))]

include S1 S2 S3 S4 in
/-- The normalised aggregate of one feature column, computed on the padded arrays with the guarded inverse square
    roots, is the reference's. -/
theorem aggregate_eq (X : (⟨2, ![10000, 256]⟩ : Shape).Idx → EReal) (XP : (⟨2, ![10112, 256]⟩ : Shape).Idx → EReal)
    (hX : ∀ i, ∃ s : ℝ, X i = (s : EReal))
    (hP : ∀ (j : Fin 10000) (c : Fin 256), XP (ix2 (Fin.castLE le_pad j) c) = X (ix2 j c))
    (hP0 : ∀ (j : Fin 10112) (c : Fin 256), 10000 ≤ j.val → XP (ix2 j c) = 0)
    (r : Fin 10000) (c : Fin 256) :
    (∑ j : Fin 10112, AK (ix2 (Fin.castLE le_pad r) j) * (XP (ix2 j c) * guardedInvSqrt AK j)) * guardedInvSqrt AK (Fin.castLE le_pad r)
      = ∑ j : Fin 10000, ((A (ix2 r j) * invSqrtDegree A r) * invSqrtDegree A j) * X (ix2 j c) :=
  PaddedSum.normalised_aggregate le_pad (fun i j => A (ix2 i j)) (fun i j => AK (ix2 i j)) (fun j => X (ix2 j c))
    (fun j => XP (ix2 j c)) (invSqrtDegree A) (guardedInvSqrt AK) r (S1 r) (S3 r) (fun j => hP j c) (fun j hj => hP0 j c hj)
    (fun j => hX _) (invSqrtDegree_real A S3 S4) (guarded_eq AK A S1 S2 S3 S4)

end Cert.NormalisedBridge

end
-- ==== Proof.KernelValue.lean ====
/-
  The idealized kernel's result at an index, as a formula in the argument arrays. With A' the padded 10112 × 10112
  adjacency array the host scatters build, X' the features padded with zero rows, d'(j) the guarded inverse square root
  of the j-th padded row sum and W the weights, the result at row r < 10000 and column o is
    Σ_c ((Σ_{j<10112} A'(r,j) · (X'(j,c) · d'(j))) · d'(r)) · W(c,o):
  the first region writes d', the host scales the padded features by it, the second region forms the two matrix
  products with the row scaling in between, and the host keeps the leading 10000 rows.
-/
import proofs.«133764_j58703613001790_1_alg».proof.Proof.KernelFold
import proofs.«133764_j58703613001790_1_alg».proof.Proof.DegreeArray
import proofs.«133764_j58703613001790_1_alg».proof.Proof.AggregateArray
import proofs.«133764_j58703613001790_1_alg».proof.Proof.KernelAdjacency
import proofs.«133764_j58703613001790_1_alg».proof.Proof.HostReads
import proofs.«133764_j58703613001790_1_alg».proof.Proof.PayloadAt
import proofs.«133764_j58703613001790_1_alg».proof.Proof.NormalisedBridge

set_option maxRecDepth 16384

noncomputable section

namespace Cert.KernelIdeal.KernelValue

open Idealize.ShloMosaic Idealize.ShloMosaic.TcCoe Idealize.ShloMosaic.ValueIdx
open Idealize.SL.Sem
open Cert.KernelIdeal Cert.KernelIdeal.Gen

variable (m : (ℓ : Loc nD τ sig) → Buf (Elt Ideal) ℓ) (ρ : Dev nD → PrngReg)

/-- The second region's entry function: two matrix products with a row scaling in between. -/
abbrev entry (row : Fin 10112 → EReal) (X : S10112x256.Idx → EReal) (d : EReal) (W : S256x256.Idx → EReal) (o : Fin 256) : EReal :=
  ∑ c : Fin 256, ((∑ j : Fin 10112, row j * X (ix2 j c)) * d) * W (ix2 c o)

theorem degree_payload (x0 : Vec Ideal S128x10112 .bf16) (y : S128x1.Idx) :
    k0_pay1 (F := Ideal) x0 y = PayloadAt.invSqrtDeg (fun k => x0 (ix2 (y 0) k)) :=
  (congrArg (k0_pay1 (F := Ideal) x0) (eq_ix2 y)).trans (PayloadAt.degree_payload_apply x0 (y 0) (y 1))

theorem gcn_payload (x0 : Vec Ideal S128x10112 .bf16) (x3 : Vec Ideal S10112x256 .f32) (x6 : Vec Ideal S128x1 .f32) (x10 : Vec Ideal S256x256 .f32)
    (y : S128x256.Idx) : k1_pay1 (F := Ideal) x0 x3 x6 x10 y = entry (fun k => x0 (ix2 (y 0) k)) x3 (x6 (ix2 (y 0) (0 : Fin 1))) x10 (y 1) :=
  (congrArg (k1_pay1 (F := Ideal) x0 x3 x6 x10) (eq_ix2 y)).trans (PayloadAt.gcn_payload_apply x0 x3 x6 x10 (y 0) (y 1))

/-- The padded features. -/
abbrev paddedFeatures (x0 : S10000x256.Idx → EReal) : S10112x256.Idx → EReal :=
  pad S10112x256 ![0, 0] ![112, 0] ![0, 0] x0 (sitofp .f32 (constantI S_ 32 0#32 : IVec S_ 32) : FVec Ideal S_ .f32)
    pads_S10000x256_S10112x256_01120_000 h_S_

/-- The first region's output at row j: the guarded inverse square root of the j-th padded row sum. -/
theorem degree_apply (c : Dev nD) (j : Fin 10112) :
    (dat0 (V1 m ρ) c).arrAt 1 cfg0.N (ix2 j (0 : Fin 1)) = NormalisedBridge.guardedInvSqrt (Cert.Adjacency.adjK (F := Ideal) (m ((c : Thread nD τ).loc main_arg2))) j :=
  (congrFun (DegreeArray.array_eq (V1 m ρ) PayloadAt.invSqrtDeg degree_payload c) (ix2 j (0 : Fin 1))).trans
    (congrArg PayloadAt.invSqrtDeg (funext fun k => congrFun (KernelAdjacency.adjacency_eq m ρ c) (ix2 j k)))

/-- The same, as the second region finds it. -/
theorem dis_apply (c : Dev nD) (j : Fin 10112) :
    V5 m ρ c main_v36 (ix2 j (0 : Fin 1)) = NormalisedBridge.guardedInvSqrt (Cert.Adjacency.adjK (F := Ideal) (m ((c : Thread nD τ).loc main_arg2))) j :=
  (congrFun (Fold.dis_at_second m ρ c) (ix2 j (0 : Fin 1))).trans (degree_apply m ρ c j)

/-- The scaled features the second region finds, at (j, c'): the padded feature times the j-th guarded inverse
    square root. -/
theorem scaled_apply (c : Dev nD) (j : Fin 10112) (c' : Fin 256) :
    V5 m ρ c main_v39 (ix2 j c')
      = paddedFeatures (m ((c : Thread nD τ).loc main_arg0)) (ix2 j c') * NormalisedBridge.guardedInvSqrt (Cert.Adjacency.adjK (F := Ideal) (m ((c : Thread nD τ).loc main_arg2))) j :=
  (congrFun (Fold.scaled_at_second m ρ c) (ix2 j c')).trans
    (congrArg (paddedFeatures (m ((c : Thread nD τ).loc main_arg0)) (ix2 j c') * ·)
      ((HostReads.broadcast_rows ((dat0 (V1 m ρ) c).arrAt 1 cfg0.N) j c').trans (degree_apply m ρ c j)))

/-- The adjacency array the second region finds, at an entry. -/
theorem adj_apply (c : Dev nD) (i j : Fin 10112) : V5 m ρ c main_v35 (ix2 i j) = Cert.Adjacency.adjK (F := Ideal) (m ((c : Thread nD τ).loc main_arg2)) (ix2 i j) :=
  (congrFun (Fold.adj_at_second m ρ c) (ix2 i j)).trans (congrFun (KernelAdjacency.adjacency_eq m ρ c) (ix2 i j))

/-- The weights the second region finds, at an entry. -/
theorem weight_apply (c : Dev nD) (i : S256x256.Idx) : V5 m ρ c main_arg1 i = m ((c : Thread nD τ).loc main_arg1) i :=
  congrFun (Fold.weight_at_second m ρ c) i

/-- The result at (r, o). -/
theorem result_apply (c : Dev nD) (r : Fin 10000) (o : Fin 256) :
    W7 m ρ c (Proc.devRef .tc main_v41) (ix2 r o)
      = ∑ c' : Fin 256,
          ((∑ j : Fin 10112, Cert.Adjacency.adjK (F := Ideal) (m ((c : Thread nD τ).loc main_arg2)) (ix2 (Fin.castLE NormalisedBridge.le_pad r) j)
              * (paddedFeatures (m ((c : Thread nD τ).loc main_arg0)) (ix2 j c')
                  * NormalisedBridge.guardedInvSqrt (Cert.Adjacency.adjK (F := Ideal) (m ((c : Thread nD τ).loc main_arg2))) j))
            * NormalisedBridge.guardedInvSqrt (Cert.Adjacency.adjK (F := Ideal) (m ((c : Thread nD τ).loc main_arg2))) (Fin.castLE NormalisedBridge.le_pad r))
          * m ((c : Thread nD τ).loc main_arg1) (ix2 c' o) := by
  refine (congrFun (Fold.result_eq m ρ c) (ix2 r o)).trans ?_
  refine (HostReads.leading_rows _ r o).trans ?_
  refine (congrFun (AggregateArray.array_eq (V5 m ρ) entry gcn_payload c) (ix2 (Fin.castLE HostReads.le_pad r) o)).trans ?_
  show entry (fun k => V5 m ρ c main_v35 (ix2 (Fin.castLE HostReads.le_pad r) k)) (V5 m ρ c main_v39)
      (V5 m ρ c main_v36 (ix2 (Fin.castLE HostReads.le_pad r) (0 : Fin 1))) (V5 m ρ c main_arg1) o = _
  refine Finset.sum_congr rfl fun c' _ => ?_
  exact congrArg₂ (· * ·)
    (congrArg₂ (· * ·)
      (Finset.sum_congr rfl fun j _ => congrArg₂ (· * ·) (adj_apply m ρ c _ j) (scaled_apply m ρ c j c'))
      (dis_apply m ρ c _))
    (weight_apply m ρ c (ix2 c' o))

end Cert.KernelIdeal.KernelValue

end
-- ==== Proof.RefAt.lean ====
import proofs.«133764_j58703613001790_1_alg».proof.Proof.Gen.ReferenceIdeal.Read

/-!
# The reference's result read at an index

At the extended reals, with `A` the adjacency the reference builds (left opaque): the result at
(i, o) is the double sum, over a feature column `c` and a node `j`, of
`A i j · rsqrt(deg i) · rsqrt(deg j) · x0 j c · x1 c o`, where `deg i` is the sum of row `i` of `A`.
-/

noncomputable section

namespace Cert.ReferenceIdeal.RefAt

open Cert.ReferenceIdeal Cert.ReferenceIdeal.Gen Cert.ReferenceIdeal.Read Idealize.ShloMosaic Idealize.ShloMosaic.ValueIdx

/-- The inverse square root of the sum of row `i` of a square matrix. -/
def invSqrtDegRef (A : S10000x10000.Idx → EReal) (i : Fin 10000) : EReal :=
  Ideal.rsqrt (∑ k : Fin 10000, A (ix2 i k))

/-- The reference's inverse-square-root degree vector at `i`: the inverse square root of the sum of
row `i` of the adjacency. -/
theorem invSqrtDeg_apply (x2 : IVec S2x320000 32) (i : Fin 10000) :
    val_main_v37 (F := Ideal) x2 (ix1 i) = invSqrtDegRef (val_main_v35 (F := Ideal) x2) i := by
  refine (val_main_v37_apply x2 (ix1 i)).trans ?_
  refine (Ideal.hostUnary_rsqrt_def (x := val_main_v36 (F := Ideal) x2 (ix1 i))).trans ?_
  unfold invSqrtDegRef
  refine congrArg Ideal.rsqrt ?_
  refine (val_main_v36_apply x2 (ix1 i)).trans ?_
  refine (congrArg (· + _) ((val_main_cst_9_apply (F := Ideal) _).trans Ideal.ofBits_zero_f32)).trans ?_
  refine (zero_add _).trans ?_
  refine Finset.sum_congr rfl fun k _ => ?_
  exact congrArg (val_main_v35 (F := Ideal) x2) (funext fun a => Fin.ext (by match a with | ⟨0, _⟩ => rfl | ⟨1, _⟩ => rfl))

/-- The reference's normalised adjacency at (i, j): `A i j · rsqrt(deg i) · rsqrt(deg j)`. -/
theorem normalised_apply (x2 : IVec S2x320000 32) (i j : Fin 10000) :
    val_main_v43 (F := Ideal) x2 (ix2 i j)
      = (val_main_v35 (F := Ideal) x2 (ix2 i j) * invSqrtDegRef (val_main_v35 (F := Ideal) x2) i)
          * invSqrtDegRef (val_main_v35 (F := Ideal) x2) j := by
  rw [val_main_v43_apply, val_main_v40_apply, val_main_v42_apply, val_main_v41_apply, val_main_v39_apply,
    val_main_v38_apply]
  have e5 : idx_main_v38 (idx_main_v39 (ix2 i j)) = ix1 i :=
    funext fun a => Fin.ext (by match a with | ⟨0, _⟩ => rfl)
  have e6 : idx_main_v41 (idx_main_v42 (ix2 i j)) = ix1 j :=
    funext fun a => Fin.ext (by match a with | ⟨0, _⟩ => rfl)
  rw [e5, e6, invSqrtDeg_apply, invSqrtDeg_apply]
  rfl

/-- The reference's result at (i, o). -/
theorem result_apply (x0 : FVec Ideal S10000x256 .f32) (x1 : FVec Ideal S256x256 .f32) (x2 : IVec S2x320000 32)
    (i : Fin 10000) (o : Fin 256) :
    val_main_v45 (F := Ideal) x0 x1 x2 (ix2 i o)
      = ∑ c : Fin 256, (∑ j : Fin 10000,
          ((val_main_v35 (F := Ideal) x2 (ix2 i j) * invSqrtDegRef (val_main_v35 (F := Ideal) x2) i)
            * invSqrtDegRef (val_main_v35 (F := Ideal) x2) j) * x0 (ix2 j c)) * x1 (ix2 c o) := by
  rw [val_main_v45_apply]
  refine Finset.sum_congr rfl fun c _ => ?_
  have e1 : lidx_main_v45 (ix2 i o) c = ix2 i c :=
    funext fun a => Fin.ext (by match a with | ⟨0, _⟩ => rfl | ⟨1, _⟩ => rfl)
  have e2 : ridx_main_v45 (ix2 i o) c = ix2 c o :=
    funext fun a => Fin.ext (by match a with | ⟨0, _⟩ => rfl | ⟨1, _⟩ => rfl)
  rw [e1, e2, val_main_v44_apply]
  refine congrArg (· * x1 (ix2 c o)) (Finset.sum_congr rfl fun j _ => ?_)
  have e3 : lidx_main_v44 (ix2 i c) j = ix2 i j :=
    funext fun a => Fin.ext (by match a with | ⟨0, _⟩ => rfl | ⟨1, _⟩ => rfl)
  have e4 : ridx_main_v44 (ix2 i c) j = ix2 j c :=
    funext fun a => Fin.ext (by match a with | ⟨0, _⟩ => rfl | ⟨1, _⟩ => rfl)
  rw [e3, e4, normalised_apply]

end Cert.ReferenceIdeal.RefAt

end
-- ==== Proof.PreDecoded.lean ====
import proofs.«133764_j58703613001790_1_alg».proof.Pre_finite_inputs
import Idealize.ShloMosaic.Lib.ReduceAll
import Idealize.ShloMosaic.Lib.ValueIdx
import Idealize.ShloMosaic.PureOps.Ideal

/-!
# The input precondition, decoded

The precondition is a host program returning one bit: the conjunction of "every entry of the
feature matrix has absolute value below +∞", the same for the weight matrix, "every entry of the
index array is ≥ 0 (signed)" and "every entry of the index array is < 10000 (signed)". When the
bit is 1, every feature entry is a real number and every index entry lies in [0, 10000).
-/

noncomputable section

namespace Cert.PreDecoded

open Idealize.ShloMosaic
open Cert.Pre_finite_inputs (S10000x256 S256x256 S2x320000 S_)

variable [Cert.Pre_finite_inputs.Facts]

/-- The scalar shape has exactly one index. -/
instance subsingleton_scalar_idx : Subsingleton S_.Idx := ⟨fun a b => funext fun d => d.elim0⟩

/-- The binary32 pattern 0x7F800000 denotes +∞. -/
theorem ofBits_inf : Ideal.ofBits .f32 0x7F800000#32 = (⊤ : EReal) := by
  simp [Ideal.ofBits, Ideal.ieee]

/-- An extended real whose absolute value max(x, −x) is strictly below +∞ is a real number. -/
theorem real_of_abs_lt_inf (x : EReal)
    (h : Ideal.cmp .olt (max x (-x)) (Ideal.ofBits .f32 0x7F800000#32) = 1#1) :
    ∃ r : ℝ, x = (r : EReal) := by
  rw [ofBits_inf] at h
  induction x using EReal.rec with
  | bot => exfalso; revert h; simp [Ideal.cmp]
  | coe r => exact ⟨r, rfl⟩
  | top => exfalso; revert h; simp [Ideal.cmp]

/-- The precondition decoded: if the precondition's bit is 1 then every entry of the feature matrix
is a real number and every entry of the index array lies in [0, 10000) as a signed integer. -/
theorem decoded (x0 : FVec Ideal S10000x256 .f32) (x1 : FVec Ideal S256x256 .f32) (x2 : IVec S2x320000 32)
    (h : Cert.Pre_finite_inputs.fn (F := Ideal) x0 x1 x2 = fun _ => 1#1) :
    (∀ i : S10000x256.Idx, ∃ r : ℝ, x0 i = (r : EReal)) ∧
      (∀ i : S2x320000.Idx, 0 ≤ (x2 i).toInt ∧ (x2 i).toInt < 10000) := by
  have e := congrFun h ValueIdx.ix0
  dsimp only [Cert.Pre_finite_inputs.fn, Cert.Pre_finite_inputs.fn_part1] at e
  simp only [Idealize.ShloMosaic.andi, IntOp.andi_eq_one] at e
  obtain ⟨⟨⟨h0, -⟩, h2⟩, h3⟩ := e
  refine ⟨fun i => ?_, fun i => ⟨?_, ?_⟩⟩
  · exact real_of_abs_lt_inf (x0 i) (Host.reduce_andi_all _ _ _ _ _ h0 i)
  · have := IntOp.cmpi_sge.1 (Host.reduce_andi_all _ _ _ _ _ h2 i)
    exact this
  · have := IntOp.cmpi_slt.1 (Host.reduce_andi_all _ _ _ _ _ h3 i)
    exact this

end Cert.PreDecoded

end
-- ==== Proof.lean ====
/-
  Graph convolution with symmetric degree normalisation: out = (D^(-1/2) A D^(-1/2) X) W, where A is the 0/1 adjacency
  matrix of the edge list with ones on the diagonal and D its degrees.

  The reference builds A as a 10000 × 10000 array (two host scatters of the constant one into zeros), takes the row
  sums, their inverse square roots d, forms A(i,j)·d(i)·d(j) and applies the two matrix products. The kernel builds the
  same matrix padded with zeros to 10112 × 10112; a first grid region writes, row by row, the inverse square root of the
  row sum, guarded to 1 where the row sum is not positive (the padded rows); the host pads the features with zero rows
  and scales row j by d(j); a second grid region forms (A X_scaled) row by row, scales row i by d(i) and multiplies by W;
  the host keeps the leading 10000 rows.

  Under the precondition — the features finite and every edge index in [0, 10000) — the two adjacency arrays agree on
  the leading block and the kernel's vanishes outside it, every degree is a real number at least one (the diagonal), so
  the guard never binds on a leading row and both results are Σ_c (Σ_j A(i,j)·d(i)·d(j)·X(j,c))·W(c,o): the padded tail
  contributes nothing, and moving d(i) across the finite sum is distributivity of real numbers, which is where
  finiteness of the features is used. The three frames are the generated ones, and the ideal pass rewrote nothing.
-/
import proofs.«133764_j58703613001790_1_alg».proof.Defs
import proofs.«133764_j58703613001790_1_alg».proof.Proof.Gen.Kernel
import proofs.«133764_j58703613001790_1_alg».proof.Proof.Gen.Kernel.Skeleton
import proofs.«133764_j58703613001790_1_alg».proof.Proof.Gen.Kernel.Launch
import proofs.«133764_j58703613001790_1_alg».proof.Proof.Gen.Kernel.Points
import proofs.«133764_j58703613001790_1_alg».proof.Proof.Gen.Kernel.Frame
import proofs.«133764_j58703613001790_1_alg».proof.Proof.Gen.KernelIdeal
import proofs.«133764_j58703613001790_1_alg».proof.Proof.Gen.KernelIdeal.Skeleton
import proofs.«133764_j58703613001790_1_alg».proof.Proof.Gen.KernelIdeal.Launch
import proofs.«133764_j58703613001790_1_alg».proof.Proof.Gen.KernelIdeal.Points
import proofs.«133764_j58703613001790_1_alg».proof.Proof.Gen.KernelIdeal.Frame
import proofs.«133764_j58703613001790_1_alg».proof.Proof.Gen.ReferenceIdeal
import proofs.«133764_j58703613001790_1_alg».proof.Proof.Gen.Pre_finite_inputs
import proofs.«133764_j58703613001790_1_alg».proof.Proof.Gen.ReferenceIdeal.Run
import proofs.«133764_j58703613001790_1_alg».proof.Proof.Gen.ReferenceIdeal.Read
import proofs.«133764_j58703613001790_1_alg».proof.Proof.KernelRun
import proofs.«133764_j58703613001790_1_alg».proof.Proof.KernelValue
import proofs.«133764_j58703613001790_1_alg».proof.Proof.RefAt
import proofs.«133764_j58703613001790_1_alg».proof.Proof.PreDecoded
import proofs.«133764_j58703613001790_1_alg».proof.Proof.Adjacency
import Idealize.ShloMosaic.Adequacy
import Idealize.ShloMosaic.Init

set_option maxRecDepth 16384

noncomputable section

namespace Cert.Proof

open Idealize.ShloMosaic Idealize.ShloMosaic.ValueIdx Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no grid region: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

set_option maxRecDepth 65536 in
/-- Both runs end, and the results agree entry by entry: the kernel's formula on the padded arrays is the reference's
    by the normalised-aggregate law, column by column of the features. -/
theorem algebraic : Cert.algebraic_KernelIdeal_ReferenceIdeal := by
  intro m ρ m' ρ' hpre hagree
  refine ⟨fun c => Cert.KernelIdeal.Gen.W7 m ρ c (Proc.devRef .tc Cert.KernelIdeal.main_v41), Cert.KernelIdeal.RunValue.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v45_eq m' c).trans ?_
  refine (congr (congr (congrArg (Cert.ReferenceIdeal.Read.val_main_v45 (F := Ideal)) (hagree c).1) (hagree c).2.1) (hagree c).2.2).trans ?_
  obtain ⟨hfin, hrange⟩ := Cert.PreDecoded.decoded _ _ _ (hpre c)
  funext i
  obtain ⟨r, o, rfl⟩ : ∃ (r : Fin 10000) (o : Fin 256), i = ix2 r o := ⟨i 0, i 1, eq_ix2 i⟩
  refine (Cert.ReferenceIdeal.RefAt.result_apply _ _ _ r o).trans ?_
  refine Eq.trans ?_ (Cert.KernelIdeal.KernelValue.result_apply m ρ c r o).symm
  refine Finset.sum_congr rfl fun c' _ => ?_
  have key := Cert.NormalisedBridge.aggregate_eq
    (Cert.Adjacency.adjK (F := Ideal) (m ((c.tc : Thread Cert.KernelIdeal.nD Cert.KernelIdeal.τ).loc Cert.KernelIdeal.main_arg2)))
    (Cert.ReferenceIdeal.Read.val_main_v35 (F := Ideal) (m ((c.tc : Thread Cert.KernelIdeal.nD Cert.KernelIdeal.τ).loc Cert.KernelIdeal.main_arg2)))
    (fun i j => Cert.Adjacency.adj_corner Cert.NormalisedBridge.le_pad _ hrange i j)
    (fun i j hij => Cert.Adjacency.adj_pad _ hrange i j hij)
    (Cert.Adjacency.ref_zero_one' _) (Cert.Adjacency.ref_diag _)
    (m ((c.tc : Thread Cert.KernelIdeal.nD Cert.KernelIdeal.τ).loc Cert.KernelIdeal.main_arg0))
    (Cert.KernelIdeal.KernelValue.paddedFeatures (m ((c.tc : Thread Cert.KernelIdeal.nD Cert.KernelIdeal.τ).loc Cert.KernelIdeal.main_arg0)))
    hfin
    (fun j c'' => Cert.KernelIdeal.HostReads.pad_inside _ _ j c'')
    (fun j c'' hj => (Cert.KernelIdeal.HostReads.pad_outside _ _ j c'' hj).trans (Cert.KernelIdeal.HostReads.pad_value_zero _))
    r c'
  exact congrArg (fun t : EReal => t * m ((c.tc : Thread Cert.KernelIdeal.nD Cert.KernelIdeal.τ).loc Cert.KernelIdeal.main_arg1) (ix2 c' o)) key.symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
